-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x1200000 : Shape := ⟨2, ![2, 1200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x2 .f32) (main_arg4 : FVec F S2 .f32) (main_arg5 : IVec S2x1200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x1200000 : Shape := ⟨2, ![2, 1200000]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S5000x128 : Shape := ⟨2, ![5000, 128]⟩
abbrev S5000x64 : Shape := ⟨2, ![5000, 64]⟩
abbrev S1300000x64 : Shape := ⟨2, ![1300000, 64]⟩
abbrev S1x64 : Shape := ⟨2, ![1, 64]⟩
abbrev S100000x2 : Shape := ⟨2, ![100000, 2]⟩
abbrev S5000x2 : Shape := ⟨2, ![5000, 2]⟩
abbrev S1300000x2 : Shape := ⟨2, ![1300000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x2, .f32⟩
  | .hbm, ⟨4, _⟩ => ⟨S2, .f32⟩
  | .hbm, ⟨5, _⟩ => ⟨S2x1200000, .i32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S100000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S1300000x1, .f32⟩
  | .hbm, ⟨57, _⟩ => ⟨S1300000x64, .f32⟩
  | .hbm, ⟨58, _⟩ => ⟨S1300000x64, .f32⟩
  | .hbm, ⟨59, _⟩ => ⟨S_, .f32⟩
  | .hbm, ⟨60, _⟩ => ⟨S100000x64, .f32⟩
  | .hbm, ⟨61, _⟩ => ⟨S1300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x2, .f32⟩
  | .hbm, ⟨66, _⟩ => ⟨S_, .i32⟩
  | .hbm, ⟨67, _⟩ => ⟨S1300000, .i32⟩
  | .hbm, ⟨68, _⟩ => ⟨S1300000, .i1⟩
  | .hbm, ⟨69, _⟩ => ⟨S_, .i32⟩
  | .hbm, ⟨70, _⟩ => ⟨S1300000, .i32⟩
  | .hbm, ⟨71, _⟩ => ⟨S1300000, .i32⟩
  | .hbm, ⟨72, _⟩ => ⟨S1300000, .i32⟩
  | .hbm, ⟨73, _⟩ => ⟨S1300000x1, .i32⟩
  | .hbm, ⟨74, _⟩ => ⟨S1300000x2, .f32⟩
  | .hbm, ⟨75, _⟩ => ⟨S1300000x1, .f32⟩
  | .hbm, ⟨76, _⟩ => ⟨S1300000x2, .f32⟩
  | .hbm, ⟨77, _⟩ => ⟨S1300000x2, .f32⟩
  | .hbm, ⟨78, _⟩ => ⟨S_, .f32⟩
  | .hbm, ⟨79, _⟩ => ⟨S100000x2, .f32⟩
  | .hbm, ⟨80, _⟩ => ⟨S1300000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1300000x1_S1300000x2_0_1 : S1300000x1.BroadcastsInDim S1300000x2 (![0, 1] : Fin 2 → Fin S1300000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x128_S128x64_S5000x64_1_0_0_1_n_n_wf : DotDims.WF S5000x128 S128x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x2_S5000x2_1_0_0_1_n_n_wf : DotDims.WF S5000x64 S64x2 S5000x2 [1] [0] [0] [1] [] []
  gather_S100000x2_S1300000x1_S1300000x2_1_0_n_n_0_1_12_wf : GatherDims.WF S100000x2 S1300000x1 S1300000x2 [1] [0] [] [0] [] 1 ![1, 2]
  scatter_S100000x2_S1300000x1_S1300000x2_1_0_0_1_wf : ScatterDims.WF S100000x2 S1300000x1 S1300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1300000x1_S1300000x2_1_0_n_n_0_1_12 : GatherDims S100000x2 S1300000x1 S1300000x2 where
  offsetDims := [1]
  collapsedSliceDims := [0]
  operandBatchingDims := []
  startIndicesBatchingDims := []
  startIndexMap := [0]
  indexVectorDim := 1
  sliceSizes := ![1, 2]
  wf := gather_S100000x2_S1300000x1_S1300000x2_1_0_n_n_0_1_12_wf
def scatter_S100000x2_S1300000x1_S1300000x2_1_0_0_1 : ScatterDims S100000x2 S1300000x1 S1300000x2 where
  updateWindowDims := [1]
  insertedWindowDims := [0]
  scatterDimsToOperandDims := [0]
  indexVectorDim := 1
  wf := scatter_S100000x2_S1300000x1_S1300000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x1200000 : Shape := ⟨2, ![2, 1200000]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩
abbrev S100000x2 : Shape := ⟨2, ![100000, 2]⟩
abbrev S1300000x2 : Shape := ⟨2, ![1300000, 2]⟩
abbrev S1x2 : Shape := ⟨2, ![1, 2]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x2, .f32⟩
  | .hbm, ⟨4, _⟩ => ⟨S2, .f32⟩
  | .hbm, ⟨5, _⟩ => ⟨S2x1200000, .i32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S100000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S1300000x1, .f32⟩
  | .hbm, ⟨57, _⟩ => ⟨S1300000x64, .f32⟩
  | .hbm, ⟨58, _⟩ => ⟨S1300000x64, .f32⟩
  | .hbm, ⟨59, _⟩ => ⟨S_, .f32⟩
  | .hbm, ⟨60, _⟩ => ⟨S100000x64, .f32⟩
  | .hbm, ⟨61, _⟩ => ⟨S1300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x2, .f32⟩
  | .hbm, ⟨70, _⟩ => ⟨S_, .i32⟩
  | .hbm, ⟨71, _⟩ => ⟨S1300000, .i32⟩
  | .hbm, ⟨72, _⟩ => ⟨S1300000, .i1⟩
  | .hbm, ⟨73, _⟩ => ⟨S_, .i32⟩
  | .hbm, ⟨74, _⟩ => ⟨S1300000, .i32⟩
  | .hbm, ⟨75, _⟩ => ⟨S1300000, .i32⟩
  | .hbm, ⟨76, _⟩ => ⟨S1300000, .i32⟩
  | .hbm, ⟨77, _⟩ => ⟨S1300000x1, .i32⟩
  | .hbm, ⟨78, _⟩ => ⟨S1300000x2, .f32⟩
  | .hbm, ⟨79, _⟩ => ⟨S1300000x1, .f32⟩
  | .hbm, ⟨80, _⟩ => ⟨S1300000x2, .f32⟩
  | .hbm, ⟨81, _⟩ => ⟨S1300000x2, .f32⟩
  | .hbm, ⟨82, _⟩ => ⟨S_, .f32⟩
  | .hbm, ⟨83, _⟩ => ⟨S100000x2, .f32⟩
  | .hbm, ⟨84, _⟩ => ⟨S1300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1300000x1_S1300000x2_0_1 : S1300000x1.BroadcastsInDim S1300000x2 (![0, 1] : Fin 2 → Fin S1300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x128_S128x64_S100000x64_1_0_0_1_n_n_wf : DotDims.WF S100000x128 S128x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x2_S100000x2_1_0_0_1_n_n_wf : DotDims.WF S100000x64 S64x2 S100000x2 [1] [0] [0] [1] [] []
  gather_S100000x2_S1300000x1_S1300000x2_1_0_n_n_0_1_12_wf : GatherDims.WF S100000x2 S1300000x1 S1300000x2 [1] [0] [] [0] [] 1 ![1, 2]
  scatter_S100000x2_S1300000x1_S1300000x2_1_0_0_1_wf : ScatterDims.WF S100000x2 S1300000x1 S1300000x2 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1300000x1_S1300000x2_1_0_n_n_0_1_12 : GatherDims S100000x2 S1300000x1 S1300000x2 where
  offsetDims := [1]
  collapsedSliceDims := [0]
  operandBatchingDims := []
  startIndicesBatchingDims := []
  startIndexMap := [0]
  indexVectorDim := 1
  sliceSizes := ![1, 2]
  wf := gather_S100000x2_S1300000x1_S1300000x2_1_0_n_n_0_1_12_wf
def scatter_S100000x2_S1300000x1_S1300000x2_1_0_0_1 : ScatterDims S100000x2 S1300000x1 S1300000x2 where
  updateWindowDims := [1]
  insertedWindowDims := [0]
  scatterDimsToOperandDims := [0]
  indexVectorDim := 1
  wf := scatter_S100000x2_S1300000x1_S1300000x2_1_0_0_1_wf

class Facts : Prop extends Facts₀ where

variable [Facts]
-- ==== Proof.KernelRun.lean ====
/-
  The idealized kernel's run with its result named.

  The program is four tiled launches among stretches of host operations. Along the run the contents of the
  TensorCore's buffers are known at every boundary between two segments: a stretch of host operations applies its
  operations to the contents it starts from, and a launch replaces its output array by what its write-backs leave and
  keeps every other buffer. So at the return every buffer that is not a launch's private staging holds the last
  boundary's contents, `W9`. The argument arrays walk back through the boundaries to the launch memory (no operation
  and no launch writes them); the result array is the fourth launch's output window, read at `W9` here and computed
  boundary by boundary in the modules that follow.
-/
import proofs.«163492_j40776419508665_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array holding the last
    boundary's contents and the six argument arrays their launch contents. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Stretches.lean ====
/-
  The stretches of host operations between the launches, read at the buffers that later segments use.

  The program and the reference prepare the graph in the same way: from the [2, 1200000] array of edge ends they
  build the source and destination lists with a self-loop appended for every node, count each node's incoming edges,
  take the reciprocal square root of the counts (zero where a count is not positive), and give every edge the product
  of the two factors at its ends. Later each layer's [100000, n] array is gathered along the sources, scaled edge by
  edge, and summed into the destinations. These operations are the same on both sides, so they are never opened:
  each stretch, started from ANY contents `U` of the buffers, leaves in the buffers named below exactly the
  reference's stage functions of what `U` holds in the buffers the stretch reads — the two terms are the same
  composition of the same operations, compared with the stages it reads kept folded. A buffer that a stretch does not
  write keeps what `U` holds there.
-/
import proofs.«163492_j40776419508665_1_alg».proof.Proof.Gen.KernelIdeal.Launch
import proofs.«163492_j40776419508665_1_alg».proof.Proof.RefRead
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

/-- Rewrites what is left of the operations' results after the one-pass rewriting: a read that sits inside a pair of
    a joined list (a shape with its array) is out of that pass's reach, and is rewritten here one operation at a time. -/
local macro "results_inside" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (U : Valuation τ sig (Elt Ideal))

/-! ## The first stretch: the two lists, the counts, their reciprocal square roots -/

/-- The source list with the self-loops appended. -/
theorem lists_sources :
    after hostOps0 U (Proc.devRef .tc main_v3) = Cert.ReferenceIdeal.Read.val_main_v3 (F := Ideal) (U (Proc.devRef .tc main_arg5)) := by
  simp only [hostOps0]
  after_results_simp
  results_inside
  rfl
/-- The destination list with the self-loops appended. -/
theorem lists_targets :
    after hostOps0 U (Proc.devRef .tc main_v6) = Cert.ReferenceIdeal.Read.val_main_v6 (F := Ideal) (U (Proc.devRef .tc main_arg5)) := by
  simp only [hostOps0]
  after_results_simp
  results_inside
  rfl
/-- Where a node's count of incoming edges is positive. -/
theorem lists_positive :
    after hostOps0 U (Proc.devRef .tc main_v12) = Cert.ReferenceIdeal.Read.val_main_v12 (F := Ideal) (U (Proc.devRef .tc main_arg5)) := by
  simp only [hostOps0]
  after_results_simp
  results_inside
  rfl
/-- The reciprocal square roots of the counts. -/
theorem lists_roots :
    after hostOps0 U (Proc.devRef .tc main_v13) = Cert.ReferenceIdeal.Read.val_main_v13 (F := Ideal) (U (Proc.devRef .tc main_arg5)) := by
  simp only [hostOps0]
  after_results_simp
  results_inside
  rfl
/-- The zero put where a count is not positive. -/
theorem lists_zero :
    after hostOps0 U (Proc.devRef .tc main_cst_2) = Cert.ReferenceIdeal.Read.val_main_cst_2 (F := Ideal) := by
  simp only [hostOps0]
  after_results_simp
  rfl

/-! The stretch writes none of the float arguments. -/
theorem lists_arg0 : after hostOps0 U (Proc.devRef .tc main_arg0) = U (Proc.devRef .tc main_arg0) := by
  simp only [hostOps0]
  after_results_simp
theorem lists_arg1 : after hostOps0 U (Proc.devRef .tc main_arg1) = U (Proc.devRef .tc main_arg1) := by
  simp only [hostOps0]
  after_results_simp
theorem lists_arg2 : after hostOps0 U (Proc.devRef .tc main_arg2) = U (Proc.devRef .tc main_arg2) := by
  simp only [hostOps0]
  after_results_simp
theorem lists_arg3 : after hostOps0 U (Proc.devRef .tc main_arg3) = U (Proc.devRef .tc main_arg3) := by
  simp only [hostOps0]
  after_results_simp
theorem lists_arg4 : after hostOps0 U (Proc.devRef .tc main_arg4) = U (Proc.devRef .tc main_arg4) := by
  simp only [hostOps0]
  after_results_simp

/-! ## The second stretch: each node's factor, the reciprocal square root where the count is positive and zero elsewhere -/

/-- The choice itself: each node's factor is the reciprocal square root where the count is positive, else the zero. -/
theorem choice_selects : after hostOps0_1 U (Proc.devRef .tc main_v14)
    = select (U (Proc.devRef .tc main_v12) : S100000.Idx → BitVec 1) (U (Proc.devRef .tc main_v13) : S100000.Idx → EReal)
        (broadcastInDim S100000 ![] bcast_S_S100000 (id (U (Proc.devRef .tc main_cst_2) : S_.Idx → EReal))) := by
  simp only [hostOps0_1]
  after_results_simp
  rfl

/-- Each node's factor, from the three arrays the choice reads. -/
theorem choice_factor (x5 : (⟨S2x1200000, .i32⟩ : BufTy).Contents (Elt Ideal))
    (h_v12 : U (Proc.devRef .tc main_v12) = Cert.ReferenceIdeal.Read.val_main_v12 (F := Ideal) x5)
    (h_v13 : U (Proc.devRef .tc main_v13) = Cert.ReferenceIdeal.Read.val_main_v13 (F := Ideal) x5)
    (h_cst_2 : U (Proc.devRef .tc main_cst_2) = Cert.ReferenceIdeal.Read.val_main_cst_2 (F := Ideal)) :
    after hostOps0_1 U (Proc.devRef .tc main_v14) = Cert.ReferenceIdeal.Read.val_main_v14 (F := Ideal) x5 := by
  rw [choice_selects, h_v12, h_v13, h_cst_2]
  rfl

/-! The stretch writes neither the lists nor the float arguments. -/
theorem choice_v3 : after hostOps0_1 U (Proc.devRef .tc main_v3) = U (Proc.devRef .tc main_v3) := by
  simp only [hostOps0_1]
  after_results_simp
theorem choice_v6 : after hostOps0_1 U (Proc.devRef .tc main_v6) = U (Proc.devRef .tc main_v6) := by
  simp only [hostOps0_1]
  after_results_simp
theorem choice_arg0 : after hostOps0_1 U (Proc.devRef .tc main_arg0) = U (Proc.devRef .tc main_arg0) := by
  simp only [hostOps0_1]
  after_results_simp
theorem choice_arg1 : after hostOps0_1 U (Proc.devRef .tc main_arg1) = U (Proc.devRef .tc main_arg1) := by
  simp only [hostOps0_1]
  after_results_simp
theorem choice_arg2 : after hostOps0_1 U (Proc.devRef .tc main_arg2) = U (Proc.devRef .tc main_arg2) := by
  simp only [hostOps0_1]
  after_results_simp
theorem choice_arg3 : after hostOps0_1 U (Proc.devRef .tc main_arg3) = U (Proc.devRef .tc main_arg3) := by
  simp only [hostOps0_1]
  after_results_simp
theorem choice_arg4 : after hostOps0_1 U (Proc.devRef .tc main_arg4) = U (Proc.devRef .tc main_arg4) := by
  simp only [hostOps0_1]
  after_results_simp

/-! ## The third stretch: every edge's factor, the product of the factors of its two ends -/

/-- Every edge's factor: the nodes' factors gathered at its source and at its destination, multiplied. -/
theorem edges_factors (x5 : (⟨S2x1200000, .i32⟩ : BufTy).Contents (Elt Ideal))
    (h_v14 : U (Proc.devRef .tc main_v14) = Cert.ReferenceIdeal.Read.val_main_v14 (F := Ideal) x5)
    (h_v3 : U (Proc.devRef .tc main_v3) = Cert.ReferenceIdeal.Read.val_main_v3 (F := Ideal) x5)
    (h_v6 : U (Proc.devRef .tc main_v6) = Cert.ReferenceIdeal.Read.val_main_v6 (F := Ideal) x5) :
    after hostOps0_2 U (Proc.devRef .tc main_v29) = Cert.ReferenceIdeal.Read.val_main_v29 (F := Ideal) x5 := by
  simp only [hostOps0_2]
  after_results_simp
  rw [h_v14, h_v3, h_v6]
  rfl

/-! The stretch writes neither the lists nor the float arguments. -/
theorem edges_v3 : after hostOps0_2 U (Proc.devRef .tc main_v3) = U (Proc.devRef .tc main_v3) := by
  simp only [hostOps0_2]
  after_results_simp
theorem edges_v6 : after hostOps0_2 U (Proc.devRef .tc main_v6) = U (Proc.devRef .tc main_v6) := by
  simp only [hostOps0_2]
  after_results_simp
theorem edges_arg0 : after hostOps0_2 U (Proc.devRef .tc main_arg0) = U (Proc.devRef .tc main_arg0) := by
  simp only [hostOps0_2]
  after_results_simp
theorem edges_arg1 : after hostOps0_2 U (Proc.devRef .tc main_arg1) = U (Proc.devRef .tc main_arg1) := by
  simp only [hostOps0_2]
  after_results_simp
theorem edges_arg2 : after hostOps0_2 U (Proc.devRef .tc main_arg2) = U (Proc.devRef .tc main_arg2) := by
  simp only [hostOps0_2]
  after_results_simp
theorem edges_arg3 : after hostOps0_2 U (Proc.devRef .tc main_arg3) = U (Proc.devRef .tc main_arg3) := by
  simp only [hostOps0_2]
  after_results_simp
theorem edges_arg4 : after hostOps0_2 U (Proc.devRef .tc main_arg4) = U (Proc.devRef .tc main_arg4) := by
  simp only [hostOps0_2]
  after_results_simp

/-! ## Between the first and the second launch: the first aggregation, and the first bias as a row -/

/-- The first layer's product gathered along the sources, scaled edge by edge and summed into the destinations. -/
theorem first_aggregate (x0 : (⟨S100000x128, .f32⟩ : BufTy).Contents (Elt Ideal)) (x1 : (⟨S128x64, .f32⟩ : BufTy).Contents (Elt Ideal)) (x5 : (⟨S2x1200000, .i32⟩ : BufTy).Contents (Elt Ideal))
    (h_v30 : U (Proc.devRef .tc main_v30) = Cert.ReferenceIdeal.Read.val_main_v30 (F := Ideal) x0 x1)
    (h_v3 : U (Proc.devRef .tc main_v3) = Cert.ReferenceIdeal.Read.val_main_v3 (F := Ideal) x5)
    (h_v6 : U (Proc.devRef .tc main_v6) = Cert.ReferenceIdeal.Read.val_main_v6 (F := Ideal) x5)
    (h_v29 : U (Proc.devRef .tc main_v29) = Cert.ReferenceIdeal.Read.val_main_v29 (F := Ideal) x5) :
    after hostOps1 U (Proc.devRef .tc main_v43) = Cert.ReferenceIdeal.Read.val_main_v43 (F := Ideal) x0 x1 x5 := by
  simp only [hostOps1]
  after_results_simp
  rw [h_v30, h_v3, h_v6, h_v29]
  rfl
/-- The first bias vector reshaped into a row. -/
theorem first_bias_row : after hostOps1 U (Proc.devRef .tc main_v44)
    = shapeCast S1x64 (U (Proc.devRef .tc main_arg2) : S64.Idx → EReal) shapeCasts_S64_S1x64 := by
  simp only [hostOps1]
  after_results_simp
  rfl

/-! The stretch writes neither the graph's lists and factors nor the later arguments. -/
theorem first_v3 : after hostOps1 U (Proc.devRef .tc main_v3) = U (Proc.devRef .tc main_v3) := by
  simp only [hostOps1]
  after_results_simp
theorem first_v6 : after hostOps1 U (Proc.devRef .tc main_v6) = U (Proc.devRef .tc main_v6) := by
  simp only [hostOps1]
  after_results_simp
theorem first_v29 : after hostOps1 U (Proc.devRef .tc main_v29) = U (Proc.devRef .tc main_v29) := by
  simp only [hostOps1]
  after_results_simp
theorem first_arg3 : after hostOps1 U (Proc.devRef .tc main_arg3) = U (Proc.devRef .tc main_arg3) := by
  simp only [hostOps1]
  after_results_simp
theorem first_arg4 : after hostOps1 U (Proc.devRef .tc main_arg4) = U (Proc.devRef .tc main_arg4) := by
  simp only [hostOps1]
  after_results_simp

/-! ## Between the third and the fourth launch: the second aggregation, and the second bias as a row -/

/-- The second layer's product gathered along the sources, scaled edge by edge and summed into the destinations. -/
theorem second_aggregate (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x2, .f32⟩ : BufTy).Contents (Elt Ideal)) (x5 : (⟨S2x1200000, .i32⟩ : BufTy).Contents (Elt Ideal))
    (h_v46 : U (Proc.devRef .tc main_v46) = Cert.ReferenceIdeal.Read.val_main_v48 (F := Ideal) x0 x1 x2 x3 x5)
    (h_v3 : U (Proc.devRef .tc main_v3) = Cert.ReferenceIdeal.Read.val_main_v3 (F := Ideal) x5)
    (h_v6 : U (Proc.devRef .tc main_v6) = Cert.ReferenceIdeal.Read.val_main_v6 (F := Ideal) x5)
    (h_v29 : U (Proc.devRef .tc main_v29) = Cert.ReferenceIdeal.Read.val_main_v29 (F := Ideal) x5) :
    after hostOps3 U (Proc.devRef .tc main_v59) = Cert.ReferenceIdeal.Read.val_main_v61 (F := Ideal) x0 x1 x2 x3 x5 := by
  simp only [hostOps3]
  after_results_simp
  rw [h_v46, h_v3, h_v6, h_v29]
  rfl
/-- The second bias vector reshaped into a row. -/
theorem second_bias_row : after hostOps3 U (Proc.devRef .tc main_v60)
    = shapeCast S1x2 (U (Proc.devRef .tc main_arg4) : S2.Idx → EReal) shapeCasts_S2_S1x2 := by
  simp only [hostOps3]
  after_results_simp
  rfl

end Cert.KernelIdeal.Stretches

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«163492_j40776419508665_1_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.Product0.lean ====
/-
  The first launch: the [100000, 128] feature array times the [128, 64] weight array, 5000 rows at a time.

  The launch walks 20 points. At point t the left operand's window is rows 5000·t … 5000·t + 4999 of its array
  (all 128 columns), the right operand's window is its whole [128, 64] array, and the result's window is rows
  5000·t … 5000·t + 4999 of the result. The body multiplies the two blocks on the matrix unit into a zero accumulator
  (the narrowing of the operands to a shorter format is the identity on the extended reals), so entry (p, j) of the
  block it writes back is the sum over q of left (5000·t + p, q) · right (q, j): row 5000·t + p of the product of the
  whole arrays. The 20 blocks tile the rows, hence after the launch the result array is the product of the two arrays
  as the launch found them.
-/
import proofs.«163492_j40776419508665_1_alg».proof.Proof.Gen.KernelIdeal.Frame
import proofs.«163492_j40776419508665_1_alg».proof.Proof.LibMatProd
import proofs.«163492_j40776419508665_1_alg».proof.Proof.LibPlainDot
import Idealize.ShloMosaic.Lib.Pipeline.Value
import Idealize.ShloMosaic.Lib.ValueIdx

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Where the windows sit at point t: the left operand's and the result's blocks are the t-th slab of rows, the right
    operand's block is its whole array. -/
theorem slabs : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- Entry (p, j) of the body's product: the sum over q of x0 (p, q) · x1 (q, j). -/
theorem body_at (x0 : Vec Ideal S5000x128 .f32) (x1 : Vec Ideal S128x64 .f32) (p : Fin 5000) (j : Fin 64) :
    k0_pay1 x0 x1 (ix2 p j) = ∑ q : Fin 128, x0 (ix2 p q) * x1 (ix2 q j) := by
  unfold k0_pay1
  exact Cert.LibAffine.coreDot_ix2 dot_S5000x128_S128x64_S5000x64_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none _ _ p j

/-- Row p of the left operand's block at point t is row 5000·t + p of its array. -/
theorem left_block (c : Dev nD) (t : Fin cfg0.N) (p : Fin 5000) (q : Fin 128) (P : Fin 100000) (hP : P.val = t.val * 5000 + p.val) :
    iblk0 V c 0 t (ix2 p q) = (V c main_arg0 : S100000x128.Idx → EReal) (ix2 P q) := by
  obtain ⟨e0, e1, -, -, -, -, -⟩ := slabs t
  show V c main_arg0 (((cfg0.win 0).blk t).view.emb (ix2 p q)) = V c main_arg0 (ix2 P q)
  refine congrArg (V c main_arg0) (funext fun a => Fin.ext ?_)
  match a with
  | ⟨0, _⟩ => show win0_0.index t (0 : Fin 2) * 5000 + 1 * p.val = P.val; omega
  | ⟨1, _⟩ => show win0_0.index t (1 : Fin 2) * 128 + 1 * q.val = q.val; omega

/-- The right operand's block at every point is its whole array. -/
theorem right_block (c : Dev nD) (t : Fin cfg0.N) (q : Fin 128) (j : Fin 64) :
    iblk0 V c 1 t (ix2 q j) = (V c main_arg1 : S128x64.Idx → EReal) (ix2 q j) := by
  obtain ⟨-, -, e2, e3, -, -, -⟩ := slabs t
  show V c main_arg1 (((cfg0.win 1).blk t).view.emb (ix2 q j)) = V c main_arg1 (ix2 q j)
  refine congrArg (V c main_arg1) (funext fun a => Fin.ext ?_)
  match a with
  | ⟨0, _⟩ => show win0_1.index t (0 : Fin 2) * 128 + 1 * q.val = q.val; omega
  | ⟨1, _⟩ => show win0_1.index t (1 : Fin 2) * 64 + 1 * j.val = j.val; omega

/-- What point t writes back is block t of the product of the two arrays as the launch found them. -/
theorem written_back (c : Dev nD) (t : Fin cfg0.N) :
    (dat0 V c).flushed 2 t = ((cfg0.win 2).blk t).view.read (Elt Ideal)
      (Cert.LibMatProd.mm (V c main_arg0 : S100000x128.Idx → EReal) (V c main_arg1 : S128x64.Idx → EReal)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x64) zeros]
  obtain ⟨-, -, -, -, e4, e5, ht⟩ := slabs t
  funext j
  obtain ⟨p, n, rfl⟩ : ∃ (p : Fin 5000) (n : Fin 64), j = ix2 p n := ⟨j 0, j 1, eq_ix2 j⟩
  have hlt : t.val * 5000 + p.val < 100000 := by have := p.isLt; omega
  have hemb : ((cfg0.win 2).blk t).view.emb (ix2 p n) = ix2 (⟨t.val * 5000 + p.val, hlt⟩ : Fin 100000) n :=
    funext fun a => Fin.ext (by
      match a with
      | ⟨0, _⟩ => show win0_2.index t (0 : Fin 2) * 5000 + 1 * p.val = t.val * 5000 + p.val; omega
      | ⟨1, _⟩ => show win0_2.index t (1 : Fin 2) * 64 + 1 * n.val = n.val; omega)
  show k0_pay1 (iblk0 V c 0 t) (iblk0 V c 1 t) (ix2 p n)
    = Cert.LibMatProd.mm (V c main_arg0 : S100000x128.Idx → EReal) (V c main_arg1 : S128x64.Idx → EReal)
        (((cfg0.win 2).blk t).view.emb (ix2 p n))
  rw [hemb, Cert.LibMatProd.mm_ix2]
  refine (body_at (iblk0 V c 0 t) (iblk0 V c 1 t) p n).trans (Finset.sum_congr rfl fun q _ => ?_)
  rw [left_block V c t p q ⟨t.val * 5000 + p.val, hlt⟩ rfl, right_block V c t q n]

/-- An index of the result array lies in point t's block iff its row is in the t-th slab. -/
theorem in_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- Every index of the result array lies in the block of the point its row's slab names. -/
theorem tiled (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; rw [hN]; omega⟩
  obtain ⟨-, -, -, -, e4, e5, -⟩ := slabs t
  have htv : t.val = (i 0).val / 5000 := rfl
  refine ⟨t, flush0_2 t, ?_⟩
  rw [in_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the launch the result array is the product of the two operand arrays as the launch found them. -/
theorem product (c : Dev nD) :
    (dat0 V c).arrAt 2 cfg0.N
      = Cert.LibMatProd.mm (V c main_arg0 : S100000x128.Idx → EReal) (V c main_arg1 : S128x64.Idx → EReal) :=
  (dat0 V c).arrAt_eq_of_cover 2 _ (fun t _ => written_back V c t) tiled

end Cert.KernelIdeal.Product0

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibBroadcastRead.lean ====
/-
  Two broadcasts read at an index.

  A single number broadcast into an array of any shape is that number at every index. A one-column array [a, 1] laid
  along every row of an [a, b] array by a broadcast along both axes is, at (p, c), the column's entry p.

  General lemmas: nothing here mentions a program; the shapes and extents are variables.
-/
import Idealize.ShloMosaic.Lib.Pipeline.Value
import Idealize.ShloMosaic.Lib.ValueIdx
import Idealize.ShloMosaic.Lib.ValueLayout

namespace Cert.LibBroadcastRead

open Idealize.ShloMosaic Idealize.ShloMosaic.ValueIdx

variable {α : Type}

/-- A rank-0 array broadcast into any shape reads, at every index, its one entry. -/
theorem broadcastInDim_scalar_apply {t : Shape} (hd : (⟨0, ![]⟩ : Shape).BroadcastsInDim t ![])
    (x : (⟨0, ![]⟩ : Shape).Idx → α) (j : t.Idx) : broadcastInDim t ![] hd x j = x ix0 :=
  broadcastInDim_apply ![] hd x j ix0 fun ax => ax.elim0

/-- A column [a, 1] laid along every row of an [a, b] array by a broadcast along both axes reads, at (p, c), the
    column's entry p. -/
theorem broadcastInDim_a1_ab_apply {a b : ℕ} (hd : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hd v (ix2 p c) = v (ix2 p (0 : Fin 1)) := by
  refine broadcastInDim_apply ![0, 1] hd v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibBroadcastRead
-- ==== Proof.LibRowSoftmax.lean ====
/-
  General lemmas: two row-wise layers of an [a, b] array over the extended reals, each read at an index.

  Both layers first add a bias row r of shape [1, b] to every row of x: the biased entry (p, c) is
  x (p, c) + r (0, c). The first layer then clamps at zero from below: entry (p, c) is the maximum of the biased entry
  and 0. The second takes the logarithm of the softmax of every biased row v: with m the maximum of v (folded from −∞)
  and s c = v c − m, entry c is s c − log (Σ over c' of exp (s c')).

  * `biased`, `biasRelu`, `logSoftmaxRow`, `logSoftmaxRows`: the functions, with their entries at (p, c);
  * `biased_congr`, `logSoftmaxRows_congr`: row p of a result reads only row p of the operand, so a block of rows of
    a result is the result of the block of rows;
  * `coreBiased_ix2`, `coreBiasRelu_eq`, `coreLogSoftmax_eq`: the vector unit's spelling (the row broadcast over the
    rows, a splat zero, lane maxima and lane sums with keepdims casts and column broadcasts) is these functions;
  * `hostBiased_ix2`, `hostBiasRelu_eq`, `hostLogSoftmax_eq`: the host's spelling (broadcasts along named axes, a
    maximum-reduce from −∞ joined once more with −∞, a sum-reduce from zero) is the same functions.
  On the extended reals −∞ is the least element, so joining a row maximum with −∞ once more changes nothing; no step
  needs a finite operand. Nothing here mentions a program: the extents are variables and the side conditions of the
  layout operations are hypotheses.
-/
import Idealize.ShloMosaic.Lib.ValueLayout
import Idealize.ShloMosaic.Lib.ValueIdx
import Idealize.ShloMosaic.Lib.Pipeline.Value
import Idealize.ShloMosaic.PureOps.Ideal.Laws
import proofs.«163492_j40776419508665_1_alg».proof.Proof.LibAffine
import proofs.«163492_j40776419508665_1_alg».proof.Proof.LibDenseOps
import proofs.«163492_j40776419508665_1_alg».proof.Proof.LibColumnRow
import proofs.«163492_j40776419508665_1_alg».proof.Proof.LibBroadcastRead

noncomputable section

namespace Cert.LibRowSoftmax

open Idealize.ShloMosaic Idealize.ShloMosaic.ValueIdx

variable {a b : ℕ}

/-! ## The functions -/

/-- Entry (p, c) of x with the bias row added. -/
def biased (x : FVec Ideal ⟨2, ![a, b]⟩ .f32) (r : FVec Ideal ⟨2, ![1, b]⟩ .f32) : FVec Ideal ⟨2, ![a, b]⟩ .f32 :=
  fun i => x i + r (ix2 (0 : Fin 1) (i 1))

theorem biased_ix2 (x : FVec Ideal ⟨2, ![a, b]⟩ .f32) (r : FVec Ideal ⟨2, ![1, b]⟩ .f32) (p : Fin a) (c : Fin b) :
    biased x r (ix2 p c) = x (ix2 p c) + r (ix2 (0 : Fin 1) c) := rfl

/-- The biased array clamped at zero from below. -/
def biasRelu (x : FVec Ideal ⟨2, ![a, b]⟩ .f32) (r : FVec Ideal ⟨2, ![1, b]⟩ .f32) : FVec Ideal ⟨2, ![a, b]⟩ .f32 :=
  fun i => max (biased x r i) 0

/-- The maximum of a row, folded from −∞. -/
def rowMax (v : Fin b → Ideal .f32) : Ideal .f32 := (Finset.univ : Finset (Fin b)).fold max ⊥ v

/-- The logarithm of the softmax of one row: the row shifted by its maximum, minus the logarithm of the sum of the
    exponentials of the shifted row. -/
def logSoftmaxRow (v : Fin b → Ideal .f32) (c : Fin b) : Ideal .f32 :=
  (v c - rowMax v) - Ideal.log (∑ c' : Fin b, Ideal.exp (v c' - rowMax v))

/-- The logarithm of the softmax of every row of an [a, b] array. -/
def logSoftmaxRows (v : FVec Ideal ⟨2, ![a, b]⟩ .f32) : FVec Ideal ⟨2, ![a, b]⟩ .f32 :=
  fun i => logSoftmaxRow (fun c => v (ix2 (i 0) c)) (i 1)

theorem logSoftmaxRows_ix2 (v : FVec Ideal ⟨2, ![a, b]⟩ .f32) (p : Fin a) (c : Fin b) :
    logSoftmaxRows v (ix2 p c) = logSoftmaxRow (fun c' => v (ix2 p c')) c := rfl

/-! ## Row locality -/

/-- The biased entry (p, c) reads only entry (p, c) of the array and entry c of the bias row. -/
theorem biased_congr {a' : ℕ} (x : FVec Ideal ⟨2, ![a, b]⟩ .f32) (r : FVec Ideal ⟨2, ![1, b]⟩ .f32)
    (x' : FVec Ideal ⟨2, ![a', b]⟩ .f32) (r' : FVec Ideal ⟨2, ![1, b]⟩ .f32) (p : Fin a) (p' : Fin a') (c : Fin b)
    (hx : x (ix2 p c) = x' (ix2 p' c)) (hr : r (ix2 (0 : Fin 1) c) = r' (ix2 (0 : Fin 1) c)) :
    biased x r (ix2 p c) = biased x' r' (ix2 p' c) := by
  rw [biased_ix2, biased_ix2, hx, hr]

/-- Row p of the logarithm of the softmax reads only row p of the array. -/
theorem logSoftmaxRows_congr {a' : ℕ} (v : FVec Ideal ⟨2, ![a, b]⟩ .f32) (v' : FVec Ideal ⟨2, ![a', b]⟩ .f32)
    (p : Fin a) (p' : Fin a') (c : Fin b) (h : ∀ c' : Fin b, v (ix2 p c') = v' (ix2 p' c')) :
    logSoftmaxRows v (ix2 p c) = logSoftmaxRows v' (ix2 p' c) := by
  rw [logSoftmaxRows_ix2, logSoftmaxRows_ix2]
  exact congrArg (fun f => logSoftmaxRow f c) (funext h)

/-! ## Two float words -/

/-- The word of −∞ denotes the least extended real. -/
theorem negInf : Ideal.ofBits .f32 0xFF800000#32 = (⊥ : EReal) := by simp [Ideal.ofBits, Ideal.ieee]

/-- The elementwise functions read at an index. -/
theorem exp_at {s : Shape} (w : FVec Ideal s .f32) (i : s.Idx) : exp w i = Ideal.exp (w i) := rfl
theorem log_at {s : Shape} (w : FVec Ideal s .f32) (i : s.Idx) : log w i = Ideal.log (w i) := rfl
theorem hostExp_at {s : Shape} (w : FVec Ideal s .f32) (i : s.Idx) : Host.exp w i = Ideal.exp (w i) := rfl
theorem hostLog_at {s : Shape} (w : FVec Ideal s .f32) (i : s.Idx) : Host.log w i = Ideal.log (w i) := rfl

/-! ## The vector unit's spelling -/

/-- The array plus the bias row broadcast over the rows is the biased array. -/
theorem coreBiased_eq (x : FVec Ideal ⟨2, ![a, b]⟩ .f32) (r : FVec Ideal ⟨2, ![1, b]⟩ .f32)
    (hb : (⟨2, ![1, b]⟩ : Shape).Broadcasts ⟨2, ![a, b]⟩) :
    addf x (broadcastTo ⟨2, ![a, b]⟩ r hb) = biased x r := by
  funext i
  obtain ⟨p, c, rfl⟩ : ∃ (p : Fin a) (c : Fin b), i = ix2 p c := ⟨i 0, i 1, eq_ix2 i⟩
  rw [addf_apply, broadcastTo_1b_ab_apply, biased_ix2]

/-- The biased array against a splat zero, entry by entry the larger, is the clamped layer. -/
theorem coreBiasRelu_eq (x : FVec Ideal ⟨2, ![a, b]⟩ .f32) (r : FVec Ideal ⟨2, ![1, b]⟩ .f32)
    (hb : (⟨2, ![1, b]⟩ : Shape).Broadcasts ⟨2, ![a, b]⟩) :
    maximumf (addf x (broadcastTo ⟨2, ![a, b]⟩ r hb))
        (broadcast ⟨2, ![a, b]⟩ (Scalar.ofBits (F := Ideal) .f32 0x00000000#32)) = biasRelu x r := by
  rw [coreBiased_eq]
  funext i
  rw [maximumf_apply, broadcast_apply]
  show max (biased x r i) (Ideal.ofBits .f32 0x00000000#32) = max (biased x r i) 0
  rw [Ideal.ofBits_zero_f32]

/-- An array shifted by its lane maxima, the maxima cast to a column and laid along the rows. -/
def coreShift (v : FVec Ideal ⟨2, ![a, b]⟩ .f32) (hred : (⟨2, ![a, b]⟩ : Shape).Reduces [1] (⟨1, ![a]⟩ : Shape))
    (hφ : FKind.Formats .f32) (hmax : (0xFF800000#32 : BitVec 32) = FKind.maximumf.neutral .f32 hφ)
    (hc : (⟨1, ![a]⟩ : Shape).ShapeCasts ⟨2, ![a, 1]⟩) (hcb : (⟨2, ![a, 1]⟩ : Shape).Broadcasts ⟨2, ![a, b]⟩) :
    FVec Ideal ⟨2, ![a, b]⟩ .f32 :=
  subf v (broadcastTo ⟨2, ![a, b]⟩
    (shapeCast ⟨2, ![a, 1]⟩ (multiReduction .maximumf [1] ⟨1, ![a]⟩ v 0xFF800000#32 hred hφ hmax) hc) hcb)

theorem coreShift_ix2 (v : FVec Ideal ⟨2, ![a, b]⟩ .f32) (hred : (⟨2, ![a, b]⟩ : Shape).Reduces [1] (⟨1, ![a]⟩ : Shape))
    (hφ : FKind.Formats .f32) (hmax : (0xFF800000#32 : BitVec 32) = FKind.maximumf.neutral .f32 hφ)
    (hc : (⟨1, ![a]⟩ : Shape).ShapeCasts ⟨2, ![a, 1]⟩) (hcb : (⟨2, ![a, 1]⟩ : Shape).Broadcasts ⟨2, ![a, b]⟩)
    (p : Fin a) (c : Fin b) :
    coreShift v hred hφ hmax hc hcb (ix2 p c) = v (ix2 p c) - rowMax (fun c' => v (ix2 p c')) := by
  unfold coreShift
  rw [subf_apply, Cert.LibDenseOps.broadcastTo_a1_ab_apply, Cert.LibDenseOps.shapeCast_a_a1_apply,
    Cert.LibDenseOps.laneMax_apply, negInf]
  rfl

/-- The vector unit's logarithm of the softmax of every row: the shifted array minus, laid along the rows, the
    logarithm of the lane sums of its exponentials. -/
def coreLogSoftmax (v : FVec Ideal ⟨2, ![a, b]⟩ .f32) (hred : (⟨2, ![a, b]⟩ : Shape).Reduces [1] (⟨1, ![a]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hcb : (⟨2, ![a, 1]⟩ : Shape).Broadcasts ⟨2, ![a, b]⟩) :
    FVec Ideal ⟨2, ![a, b]⟩ .f32 :=
  subf (coreShift v hred hφ hmax hc hcb) (broadcastTo ⟨2, ![a, b]⟩
    (log (shapeCast ⟨2, ![a, 1]⟩
      (multiReduction .add [1] ⟨1, ![a]⟩ (exp (coreShift v hred hφ hmax hc hcb)) 0x00000000#32 hred hφ hadd) hc)) hcb)

theorem coreLogSoftmax_eq (v : FVec Ideal ⟨2, ![a, b]⟩ .f32) (hred : (⟨2, ![a, b]⟩ : Shape).Reduces [1] (⟨1, ![a]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hcb : (⟨2, ![a, 1]⟩ : Shape).Broadcasts ⟨2, ![a, b]⟩) :
    coreLogSoftmax v hred hφ hmax hadd hc hcb = logSoftmaxRows v := by
  funext i
  obtain ⟨p, c, rfl⟩ : ∃ (p : Fin a) (c : Fin b), i = ix2 p c := ⟨i 0, i 1, eq_ix2 i⟩
  have hsum : multiReduction .add [1] ⟨1, ![a]⟩ (exp (coreShift v hred hφ hmax hc hcb)) 0x00000000#32 hred hφ hadd (ix1 p)
      = ∑ c' : Fin b, Ideal.exp (v (ix2 p c') - rowMax (fun c'' => v (ix2 p c''))) := by
    rw [Cert.LibDenseOps.laneSum_apply]
    refine Finset.sum_congr rfl fun c' _ => ?_
    show Ideal.exp (coreShift v hred hφ hmax hc hcb (ix2 p c')) = _
    rw [coreShift_ix2]
  unfold coreLogSoftmax
  rw [subf_apply, coreShift_ix2, Cert.LibDenseOps.broadcastTo_a1_ab_apply, logSoftmaxRows_ix2]
  show _ - Ideal.log (shapeCast ⟨2, ![a, 1]⟩ _ hc (ix2 p (0 : Fin 1))) = _
  rw [Cert.LibDenseOps.shapeCast_a_a1_apply, hsum]
  rfl

/-! ## The host's spelling -/

/-- The array plus the bias row laid along every row (a broadcast along both axes) is the biased array. -/
theorem hostBiased_eq (x : FVec Ideal ⟨2, ![a, b]⟩ .f32) (r : FVec Ideal ⟨2, ![1, b]⟩ .f32)
    (hd : (⟨2, ![1, b]⟩ : Shape).BroadcastsInDim ⟨2, ![a, b]⟩ ![0, 1]) :
    addf x (broadcastInDim ⟨2, ![a, b]⟩ ![0, 1] hd r) = biased x r := by
  funext i
  obtain ⟨p, c, rfl⟩ : ∃ (p : Fin a) (c : Fin b), i = ix2 p c := ⟨i 0, i 1, eq_ix2 i⟩
  rw [addf_apply, Cert.LibAffine.broadcastInDim_1n_an_apply, biased_ix2]

/-- The biased array against a broadcast zero, entry by entry the larger, is the clamped layer. -/
theorem hostBiasRelu_eq (x : FVec Ideal ⟨2, ![a, b]⟩ .f32) (r : FVec Ideal ⟨2, ![1, b]⟩ .f32)
    (hd : (⟨2, ![1, b]⟩ : Shape).BroadcastsInDim ⟨2, ![a, b]⟩ ![0, 1])
    (hs : (⟨0, ![]⟩ : Shape).BroadcastsInDim ⟨2, ![a, b]⟩ ![]) :
    maximumf (addf x (broadcastInDim ⟨2, ![a, b]⟩ ![0, 1] hd r))
        (broadcastInDim ⟨2, ![a, b]⟩ ![] hs (constant (F := Ideal) ⟨0, ![]⟩ .f32 0x00000000#32)) = biasRelu x r := by
  rw [hostBiased_eq]
  funext i
  rw [maximumf_apply, Cert.LibBroadcastRead.broadcastInDim_scalar_apply, constant_apply, Ideal.ofBits_zero_f32]
  rfl

/-- An array shifted by its row maxima in the host's spelling: a maximum-reduce over axis 1 from −∞, joined once more
    with a broadcast −∞, broadcast into a column and along the rows. -/
def hostShift (v : FVec Ideal ⟨2, ![a, b]⟩ .f32) (h' : (⟨2, ![a, b]⟩ : Shape).ReducesTo [1] (⟨1, ![a]⟩ : Shape))
    (hu : 0 < (⟨0, ![]⟩ : Shape).numel) (hs : (⟨0, ![]⟩ : Shape).BroadcastsInDim ⟨1, ![a]⟩ ![])
    (hc : (⟨1, ![a]⟩ : Shape).BroadcastsInDim ⟨2, ![a, 1]⟩ ![0])
    (hcb : (⟨2, ![a, 1]⟩ : Shape).BroadcastsInDim ⟨2, ![a, b]⟩ ![0, 1]) : FVec Ideal ⟨2, ![a, b]⟩ .f32 :=
  subf v (broadcastInDim ⟨2, ![a, b]⟩ ![0, 1] hcb (broadcastInDim ⟨2, ![a, 1]⟩ ![0] hc
    (maximumf (broadcastInDim ⟨1, ![a]⟩ ![] hs (constant (F := Ideal) ⟨0, ![]⟩ .f32 0xFF800000#32))
      (Host.reduce FloatOps.maximumf v (constant (F := Ideal) ⟨0, ![]⟩ .f32 0xFF800000#32) h' hu))))

theorem hostShift_ix2 (v : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape))
    (hu : 0 < (⟨0, ![]⟩ : Shape).numel) (hs : (⟨0, ![]⟩ : Shape).BroadcastsInDim ⟨1, ![a]⟩ ![])
    (hc : (⟨1, ![a]⟩ : Shape).BroadcastsInDim ⟨2, ![a, 1]⟩ ![0])
    (hcb : (⟨2, ![a, 1]⟩ : Shape).BroadcastsInDim ⟨2, ![a, b]⟩ ![0, 1]) (p : Fin a) (c : Fin b) :
    hostShift v h' hu hs hc hcb (ix2 p c) = v (ix2 p c) - rowMax (fun c' => v (ix2 p c')) := by
  unfold hostShift
  rw [subf_apply, Cert.LibBroadcastRead.broadcastInDim_a1_ab_apply, Cert.LibColumnRow.broadcastInDim_a_a1_apply,
    maximumf_apply, Cert.LibBroadcastRead.broadcastInDim_scalar_apply, Cert.LibDenseOps.hostRowMax_apply _ _ h' h hu,
    constant_apply, constant_apply, negInf]
  show _ - max (⊥ : EReal) (rowMax fun c' => v (ix2 p c')) = _
  rw [max_eq_right bot_le]

/-- The host's logarithm of the softmax of every row: the shifted array minus, laid along the rows, the logarithm of
    the sum-reduce from zero of its exponentials. -/
def hostLogSoftmax (v : FVec Ideal ⟨2, ![a, b]⟩ .f32) (h' : (⟨2, ![a, b]⟩ : Shape).ReducesTo [1] (⟨1, ![a]⟩ : Shape))
    (hu : 0 < (⟨0, ![]⟩ : Shape).numel) (hs : (⟨0, ![]⟩ : Shape).BroadcastsInDim ⟨1, ![a]⟩ ![])
    (hc : (⟨1, ![a]⟩ : Shape).BroadcastsInDim ⟨2, ![a, 1]⟩ ![0])
    (hcb : (⟨2, ![a, 1]⟩ : Shape).BroadcastsInDim ⟨2, ![a, b]⟩ ![0, 1]) : FVec Ideal ⟨2, ![a, b]⟩ .f32 :=
  subf (hostShift v h' hu hs hc hcb) (broadcastInDim ⟨2, ![a, b]⟩ ![0, 1] hcb (Host.log
    (broadcastInDim ⟨2, ![a, 1]⟩ ![0] hc
      (Host.reduceAdd (Host.exp (hostShift v h' hu hs hc hcb)) (constant (F := Ideal) ⟨0, ![]⟩ .f32 0x00000000#32) h' hu))))

theorem hostLogSoftmax_eq (v : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape))
    (hu : 0 < (⟨0, ![]⟩ : Shape).numel) (hs : (⟨0, ![]⟩ : Shape).BroadcastsInDim ⟨1, ![a]⟩ ![])
    (hc : (⟨1, ![a]⟩ : Shape).BroadcastsInDim ⟨2, ![a, 1]⟩ ![0])
    (hcb : (⟨2, ![a, 1]⟩ : Shape).BroadcastsInDim ⟨2, ![a, b]⟩ ![0, 1]) :
    hostLogSoftmax v h' hu hs hc hcb = logSoftmaxRows v := by
  funext i
  obtain ⟨p, c, rfl⟩ : ∃ (p : Fin a) (c : Fin b), i = ix2 p c := ⟨i 0, i 1, eq_ix2 i⟩
  have hsum : Host.reduceAdd (Host.exp (hostShift v h' hu hs hc hcb)) (constant (F := Ideal) ⟨0, ![]⟩ .f32 0x00000000#32) h' hu (ix1 p)
      = ∑ c' : Fin b, Ideal.exp (v (ix2 p c') - rowMax (fun c'' => v (ix2 p c''))) := by
    simp only [Host.reduceAdd, Ideal.hostReduceAdd_def]
    rw [Ideal.hostReduceAdd_single h' h, constant_apply, Ideal.ofBits_zero_f32, zero_add]
    refine Finset.sum_congr rfl fun c' _ => ?_
    rw [Cert.LibDenseOps.lift_lane h p c', hostExp_at, hostShift_ix2 v h' h]
    rfl
  unfold hostLogSoftmax
  rw [subf_apply, hostShift_ix2 v h' h, Cert.LibBroadcastRead.broadcastInDim_a1_ab_apply, hostLog_at,
    Cert.LibColumnRow.broadcastInDim_a_a1_apply, hsum, logSoftmaxRows_ix2]
  rfl

end Cert.LibRowSoftmax

end
-- ==== Proof.Rectify1.lean ====
/-
  The second launch: the bias row added to every row of the aggregated [100000, 64] array, then clamped at zero from below, 5000 rows at a time.

  The launch walks 20 points. At point t the array's window is rows 5000·t … 5000·t + 4999 (all 64 columns), the
  bias row's window is the whole [1, 64] array, and the result's window is rows 5000·t … 5000·t + 4999 of the result.
  The body adds the bias row, broadcast over the rows, to the block and takes the larger of each entry and zero.
  Entry (p, j) of a block's result reads only row p of the block and the bias row, so the block written back at point
  t is rows 5000·t … of the layer of the whole array; the 20 blocks tile the rows, hence after the launch the result
  array is the layer of the array and the bias row as the launch found them.
-/
import proofs.«163492_j40776419508665_1_alg».proof.Proof.Gen.KernelIdeal.Frame
import proofs.«163492_j40776419508665_1_alg».proof.Proof.LibRowSoftmax
import Idealize.ShloMosaic.Lib.Pipeline.Value
import Idealize.ShloMosaic.Lib.ValueIdx

set_option maxRecDepth 16384

noncomputable section

namespace Cert.KernelIdeal.Rectify1

open Cert.KernelIdeal Cert.KernelIdeal.Gen
open Idealize.ShloMosaic Idealize.ShloMosaic.TcCoe Idealize.ShloMosaic.ValueIdx Idealize.SL.Sem
open Idealize.ShloMosaic.Pipeline (Dat)
open Cert.LibRowSoftmax

variable (V : (c : Dev nD) → (b : Ref sig .tc) → Buf (Elt Ideal) ((c : Thread nD τ).loc b))

theorem zeros : (![0, 0] : Fin 2 → Nat) = fun _ => 0 := funext fun a => by fin_cases a <;> rfl

/-- Where the windows sit at point t: the array's and the result's blocks are the t-th slab of rows, the bias row's
    block is its whole array. -/
theorem slabs : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

/-- The body's result is the layer of its two blocks. -/
theorem body_eq (x0 : Vec Ideal S5000x64 .f32) (x1 : Vec Ideal S1x64 .f32) :
    k1_pay1 x0 x1 = biasRelu (x0 : S5000x64.Idx → EReal) (x1 : S1x64.Idx → EReal) := by
  show maximumf (F := Ideal) (addf (F := Ideal) (shapeCast S5000x64 (x0 : FVec Ideal S5000x64 .f32) shapeCasts_S5000x64_S5000x64)
      (broadcastTo S5000x64 (shapeCast S1x64 (x1 : FVec Ideal S1x64 .f32) shapeCasts_S1x64_S1x64) broadcasts_S1x64_S5000x64))
    (broadcast S5000x64 (Scalar.ofBits (F := Ideal) .f32 0x00000000#32)) = _
  rw [shapeCast_self, shapeCast_self]
  exact coreBiasRelu_eq _ _ _

/-- Entry (p, j) of the array's block at point t is entry (5000·t + p, j) of the array. -/
theorem rows_block (c : Dev nD) (t : Fin cfg1.N) (p : Fin 5000) (j : Fin 64) (P : Fin 100000) (hP : P.val = t.val * 5000 + p.val) :
    iblk1 V c 0 t (ix2 p j) = (V c main_v43 : S100000x64.Idx → EReal) (ix2 P j) := by
  obtain ⟨e0, e1, -, -, -, -, -⟩ := slabs t
  show V c main_v43 (((cfg1.win 0).blk t).view.emb (ix2 p j)) = V c main_v43 (ix2 P j)
  refine congrArg (V c main_v43) (funext fun a => Fin.ext ?_)
  match a with
  | ⟨0, _⟩ => show win1_0.index t (0 : Fin 2) * 5000 + 1 * p.val = P.val; omega
  | ⟨1, _⟩ => show win1_0.index t (1 : Fin 2) * 64 + 1 * j.val = j.val; omega

/-- The bias row's block at every point is the whole bias row. -/
theorem bias_block (c : Dev nD) (t : Fin cfg1.N) (j : Fin 64) :
    iblk1 V c 1 t (ix2 (0 : Fin 1) j) = (V c main_v44 : S1x64.Idx → EReal) (ix2 (0 : Fin 1) j) := by
  obtain ⟨-, -, e2, e3, -, -, -⟩ := slabs t
  show V c main_v44 (((cfg1.win 1).blk t).view.emb (ix2 (0 : Fin 1) j)) = V c main_v44 (ix2 (0 : Fin 1) j)
  refine congrArg (V c main_v44) (funext fun a => Fin.ext ?_)
  match a with
  | ⟨0, _⟩ => show win1_1.index t (0 : Fin 2) * 1 + 1 * (0 : Fin 1).val = (0 : Fin 1).val; omega
  | ⟨1, _⟩ => show win1_1.index t (1 : Fin 2) * 64 + 1 * j.val = j.val; omega

/-- What point t writes back is block t of the layer of the array and the bias row as the launch found them. -/
theorem written_back (c : Dev nD) (t : Fin cfg1.N) :
    (dat1 V c).flushed 2 t = ((cfg1.win 2).blk t).view.read (Elt Ideal)
      (biasRelu (V c main_v43 : S100000x64.Idx → EReal) (V c main_v44 : S1x64.Idx → EReal)) := by
  show (cfg1.win 2).cut (grid1.coords t) ((dat1 V c).after 2 t) = _
  rw [after1_2]
  unfold out1_2
  rw [View.canon_unit_zero zeros]
  simp only [View.ld_unit_zero (S := S5000x64) zeros, View.ld_unit_zero (S := S1x64) zeros]
  obtain ⟨-, -, -, -, e4, e5, ht⟩ := slabs t
  funext j
  obtain ⟨p, n, rfl⟩ : ∃ (p : Fin 5000) (n : Fin 64), j = ix2 p n := ⟨j 0, j 1, eq_ix2 j⟩
  have hlt : t.val * 5000 + p.val < 100000 := by have := p.isLt; omega
  have hemb : ((cfg1.win 2).blk t).view.emb (ix2 p n) = ix2 (⟨t.val * 5000 + p.val, hlt⟩ : Fin 100000) n :=
    funext fun a => Fin.ext (by
      match a with
      | ⟨0, _⟩ => show win1_2.index t (0 : Fin 2) * 5000 + 1 * p.val = t.val * 5000 + p.val; omega
      | ⟨1, _⟩ => show win1_2.index t (1 : Fin 2) * 64 + 1 * n.val = n.val; omega)
  show k1_pay1 (iblk1 V c 0 t) (iblk1 V c 1 t) (ix2 p n)
    = biasRelu (V c main_v43 : S100000x64.Idx → EReal) (V c main_v44 : S1x64.Idx → EReal)
        (((cfg1.win 2).blk t).view.emb (ix2 p n))
  rw [hemb, body_eq]
  show max (biased (iblk1 V c 0 t) (iblk1 V c 1 t) (ix2 p n)) 0
    = max (biased (V c main_v43 : S100000x64.Idx → EReal) (V c main_v44 : S1x64.Idx → EReal) (ix2 (⟨t.val * 5000 + p.val, hlt⟩ : Fin 100000) n)) 0
  rw [biased_congr _ _ _ _ p (⟨t.val * 5000 + p.val, hlt⟩ : Fin 100000) n (rows_block V c t p n _ rfl) (bias_block V c t n)]

/-- An index of the result array lies in point t's block iff its row is in the t-th slab. -/
theorem in_block (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v45).slice (win1_2.rect t)).set ↔ _
  rw [View.set_slice_whole, Rect.mem_set_unit]
  exact Iff.rfl

/-- Every index of the result array lies in the block of the point its row's slab names. -/
theorem tiled (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; rw [hN]; omega⟩
  obtain ⟨-, -, -, -, e4, e5, -⟩ := slabs t
  have htv : t.val = (i 0).val / 5000 := rfl
  refine ⟨t, flush1_2 t, ?_⟩
  rw [in_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- After the launch the result array is the layer of the array and the bias row as the launch found them. -/
theorem layer (c : Dev nD) :
    (dat1 V c).arrAt 2 cfg1.N
      = biasRelu (V c main_v43 : S100000x64.Idx → EReal) (V c main_v44 : S1x64.Idx → EReal) :=
  (dat1 V c).arrAt_eq_of_cover 2 _ (fun t _ => written_back V c t) tiled

end Cert.KernelIdeal.Rectify1

end
-- ==== Proof.Product2.lean ====
/-
  The third launch: the rectified [100000, 64] array times the [64, 2] weight array, 5000 rows at a time.

  The launch walks 20 points. At point t the left operand's window is rows 5000·t … 5000·t + 4999 of its array
  (all 64 columns), the right operand's window is its whole [64, 2] array, and the result's window is rows
  5000·t … 5000·t + 4999 of the result. The body multiplies the two blocks on the matrix unit into a zero accumulator
  (the narrowing of the operands to a shorter format is the identity on the extended reals), so entry (p, j) of the
  block it writes back is the sum over q of left (5000·t + p, q) · right (q, j): row 5000·t + p of the product of the
  whole arrays. The 20 blocks tile the rows, hence after the launch the result array is the product of the two arrays
  as the launch found them.
-/
import proofs.«163492_j40776419508665_1_alg».proof.Proof.Gen.KernelIdeal.Frame
import proofs.«163492_j40776419508665_1_alg».proof.Proof.LibMatProd
import proofs.«163492_j40776419508665_1_alg».proof.Proof.LibPlainDot
import Idealize.ShloMosaic.Lib.Pipeline.Value
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Where the windows sit at point t: the left operand's and the result's blocks are the t-th slab of rows, the right
    operand's block is its whole array. -/
theorem slabs : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- Entry (p, j) of the body's product: the sum over q of x0 (p, q) · x1 (q, j). -/
theorem body_at (x0 : Vec Ideal S5000x64 .f32) (x1 : Vec Ideal S64x2 .f32) (p : Fin 5000) (j : Fin 2) :
    k2_pay1 x0 x1 (ix2 p j) = ∑ q : Fin 64, x0 (ix2 p q) * x1 (ix2 q j) := by
  show FloatOps.matmul (F := Ideal) dot_S5000x64_S64x2_S5000x2_1_0_0_1_n_n none
      (truncf (F := Ideal) .bf16 (shapeCast S5000x64 (x0 : FVec Ideal S5000x64 .f32) shapeCasts_S5000x64_S5000x64) bitsLt_bf16_f32)
      (truncf (F := Ideal) .bf16 (x1 : FVec Ideal S64x2 .f32) bitsLt_bf16_f32)
      (constant (F := Ideal) S5000x2 .f32 0x00000000#32) (ix2 p j) = _
  rw [shapeCast_self]
  exact Cert.LibAffine.coreDot_ix2 dot_S5000x64_S64x2_S5000x2_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none _ _ p j

/-- Row p of the left operand's block at point t is row 5000·t + p of its array. -/
theorem left_block (c : Dev nD) (t : Fin cfg2.N) (p : Fin 5000) (q : Fin 64) (P : Fin 100000) (hP : P.val = t.val * 5000 + p.val) :
    iblk2 V c 0 t (ix2 p q) = (V c main_v45 : S100000x64.Idx → EReal) (ix2 P q) := by
  obtain ⟨e0, e1, -, -, -, -, -⟩ := slabs t
  show V c main_v45 (((cfg2.win 0).blk t).view.emb (ix2 p q)) = V c main_v45 (ix2 P q)
  refine congrArg (V c main_v45) (funext fun a => Fin.ext ?_)
  match a with
  | ⟨0, _⟩ => show win2_0.index t (0 : Fin 2) * 5000 + 1 * p.val = P.val; omega
  | ⟨1, _⟩ => show win2_0.index t (1 : Fin 2) * 64 + 1 * q.val = q.val; omega

/-- The right operand's block at every point is its whole array. -/
theorem right_block (c : Dev nD) (t : Fin cfg2.N) (q : Fin 64) (j : Fin 2) :
    iblk2 V c 1 t (ix2 q j) = (V c main_arg3 : S64x2.Idx → EReal) (ix2 q j) := by
  obtain ⟨-, -, e2, e3, -, -, -⟩ := slabs t
  show V c main_arg3 (((cfg2.win 1).blk t).view.emb (ix2 q j)) = V c main_arg3 (ix2 q j)
  refine congrArg (V c main_arg3) (funext fun a => Fin.ext ?_)
  match a with
  | ⟨0, _⟩ => show win2_1.index t (0 : Fin 2) * 64 + 1 * q.val = q.val; omega
  | ⟨1, _⟩ => show win2_1.index t (1 : Fin 2) * 2 + 1 * j.val = j.val; omega

/-- What point t writes back is block t of the product of the two arrays as the launch found them. -/
theorem written_back (c : Dev nD) (t : Fin cfg2.N) :
    (dat2 V c).flushed 2 t = ((cfg2.win 2).blk t).view.read (Elt Ideal)
      (Cert.LibMatProd.mm (V c main_v45 : S100000x64.Idx → EReal) (V c main_arg3 : S64x2.Idx → EReal)) := by
  show (cfg2.win 2).cut (grid2.coords t) ((dat2 V c).after 2 t) = _
  rw [after2_2]
  unfold out2_2
  rw [View.canon_unit_zero zeros]
  simp only [View.ld_unit_zero (S := S5000x64) zeros, View.ld_unit_zero (S := S64x2) zeros]
  obtain ⟨-, -, -, -, e4, e5, ht⟩ := slabs t
  funext j
  obtain ⟨p, n, rfl⟩ : ∃ (p : Fin 5000) (n : Fin 2), j = ix2 p n := ⟨j 0, j 1, eq_ix2 j⟩
  have hlt : t.val * 5000 + p.val < 100000 := by have := p.isLt; omega
  have hemb : ((cfg2.win 2).blk t).view.emb (ix2 p n) = ix2 (⟨t.val * 5000 + p.val, hlt⟩ : Fin 100000) n :=
    funext fun a => Fin.ext (by
      match a with
      | ⟨0, _⟩ => show win2_2.index t (0 : Fin 2) * 5000 + 1 * p.val = t.val * 5000 + p.val; omega
      | ⟨1, _⟩ => show win2_2.index t (1 : Fin 2) * 2 + 1 * n.val = n.val; omega)
  show k2_pay1 (iblk2 V c 0 t) (iblk2 V c 1 t) (ix2 p n)
    = Cert.LibMatProd.mm (V c main_v45 : S100000x64.Idx → EReal) (V c main_arg3 : S64x2.Idx → EReal)
        (((cfg2.win 2).blk t).view.emb (ix2 p n))
  rw [hemb, Cert.LibMatProd.mm_ix2]
  refine (body_at (iblk2 V c 0 t) (iblk2 V c 1 t) p n).trans (Finset.sum_congr rfl fun q _ => ?_)
  rw [left_block V c t p q ⟨t.val * 5000 + p.val, hlt⟩ rfl, right_block V c t q n]

/-- An index of the result array lies in point t's block iff its row is in the t-th slab. -/
theorem in_block (t : Fin cfg2.N) (i : S100000x2.Idx) :
    i ∈ ((cfg2.win 2).blk t).view.set ↔ ∀ a : Fin 2, win2_2.index t a * S5000x2.size a ≤ (i a).val
      ∧ (i a).val < win2_2.index t a * S5000x2.size a + S5000x2.size a := by
  show i ∈ ((View.whole main_v46).slice (win2_2.rect t)).set ↔ _
  rw [View.set_slice_whole, Rect.mem_set_unit]
  exact Iff.rfl

/-- Every index of the result array lies in the block of the point its row's slab names. -/
theorem tiled (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have hN : grid2.N = 20 := N_2
  let t : Fin cfg2.N := ⟨(i 0).val / 5000, by show (i 0).val / 5000 < grid2.N; rw [hN]; omega⟩
  obtain ⟨-, -, -, -, e4, e5, -⟩ := slabs t
  have htv : t.val = (i 0).val / 5000 := rfl
  refine ⟨t, flush2_2 t, ?_⟩
  rw [in_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 2 ≤ (i 1).val ∧ (i 1).val < win2_2.index t (1 : Fin 2) * 2 + 2
    omega

/-- After the launch the result array is the product of the two operand arrays as the launch found them. -/
theorem product (c : Dev nD) :
    (dat2 V c).arrAt 2 cfg2.N
      = Cert.LibMatProd.mm (V c main_v45 : S100000x64.Idx → EReal) (V c main_arg3 : S64x2.Idx → EReal) :=
  (dat2 V c).arrAt_eq_of_cover 2 _ (fun t _ => written_back V c t) tiled

end Cert.KernelIdeal.Product2

end
-- ==== Proof.LogSoftmax3.lean ====
/-
  The fourth launch: the bias row added to every row of the aggregated [100000, 2] array, then the logarithm of the softmax of every row, 5000 rows at a time.

  The launch walks 20 points. At point t the array's window is rows 5000·t … 5000·t + 4999 (all 2 columns), the
  bias row's window is the whole [1, 2] array, and the result's window is rows 5000·t … 5000·t + 4999 of the result.
  The body adds the bias row, broadcast over the rows, to the block, subtracts from every row its lane maximum, and subtracts from that the logarithm of the lane sum of its exponentials.
  Entry (p, j) of a block's result reads only row p of the block and the bias row, so the block written back at point
  t is rows 5000·t … of the layer of the whole array; the 20 blocks tile the rows, hence after the launch the result
  array is the layer of the array and the bias row as the launch found them.
-/
import proofs.«163492_j40776419508665_1_alg».proof.Proof.Gen.KernelIdeal.Frame
import proofs.«163492_j40776419508665_1_alg».proof.Proof.LibRowSoftmax
import Idealize.ShloMosaic.Lib.Pipeline.Value
import Idealize.ShloMosaic.Lib.ValueIdx

set_option maxRecDepth 16384

noncomputable section

namespace Cert.KernelIdeal.LogSoftmax3

open Cert.KernelIdeal Cert.KernelIdeal.Gen
open Idealize.ShloMosaic Idealize.ShloMosaic.TcCoe Idealize.ShloMosaic.ValueIdx Idealize.SL.Sem
open Idealize.ShloMosaic.Pipeline (Dat)
open Cert.LibRowSoftmax

variable (V : (c : Dev nD) → (b : Ref sig .tc) → Buf (Elt Ideal) ((c : Thread nD τ).loc b))

theorem zeros : (![0, 0] : Fin 2 → Nat) = fun _ => 0 := funext fun a => by fin_cases a <;> rfl

/-- Where the windows sit at point t: the array's and the result's blocks are the t-th slab of rows, the bias row's
    block is its whole array. -/
theorem slabs : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 20 :=
  (by decide +kernel : ∀ t : Fin grid3.N, _)

/-- The body's result is the layer of its two blocks. -/
theorem body_eq (x0 : Vec Ideal S5000x2 .f32) (x1 : Vec Ideal S1x2 .f32) :
    k3_pay1 x0 x1 = (fun x r => logSoftmaxRows (biased x r)) (x0 : S5000x2.Idx → EReal) (x1 : S1x2.Idx → EReal) := by
  show coreLogSoftmax (addf (F := Ideal) (shapeCast S5000x2 (x0 : FVec Ideal S5000x2 .f32) shapeCasts_S5000x2_S5000x2)
      (broadcastTo S5000x2 (shapeCast S1x2 (x1 : FVec Ideal S1x2 .f32) shapeCasts_S1x2_S1x2) broadcasts_S1x2_S5000x2))
    reduces_S5000x2_S5000 (.inl rfl) rfl rfl shapeCasts_S5000_S5000x1 broadcasts_S5000x1_S5000x2 = _
  rw [shapeCast_self, shapeCast_self, coreBiased_eq]
  exact coreLogSoftmax_eq _ _ _ _ _ _ _

/-- Entry (p, j) of the array's block at point t is entry (5000·t + p, j) of the array. -/
theorem rows_block (c : Dev nD) (t : Fin cfg3.N) (p : Fin 5000) (j : Fin 2) (P : Fin 100000) (hP : P.val = t.val * 5000 + p.val) :
    iblk3 V c 0 t (ix2 p j) = (V c main_v59 : S100000x2.Idx → EReal) (ix2 P j) := by
  obtain ⟨e0, e1, -, -, -, -, -⟩ := slabs t
  show V c main_v59 (((cfg3.win 0).blk t).view.emb (ix2 p j)) = V c main_v59 (ix2 P j)
  refine congrArg (V c main_v59) (funext fun a => Fin.ext ?_)
  match a with
  | ⟨0, _⟩ => show win3_0.index t (0 : Fin 2) * 5000 + 1 * p.val = P.val; omega
  | ⟨1, _⟩ => show win3_0.index t (1 : Fin 2) * 2 + 1 * j.val = j.val; omega

/-- The bias row's block at every point is the whole bias row. -/
theorem bias_block (c : Dev nD) (t : Fin cfg3.N) (j : Fin 2) :
    iblk3 V c 1 t (ix2 (0 : Fin 1) j) = (V c main_v60 : S1x2.Idx → EReal) (ix2 (0 : Fin 1) j) := by
  obtain ⟨-, -, e2, e3, -, -, -⟩ := slabs t
  show V c main_v60 (((cfg3.win 1).blk t).view.emb (ix2 (0 : Fin 1) j)) = V c main_v60 (ix2 (0 : Fin 1) j)
  refine congrArg (V c main_v60) (funext fun a => Fin.ext ?_)
  match a with
  | ⟨0, _⟩ => show win3_1.index t (0 : Fin 2) * 1 + 1 * (0 : Fin 1).val = (0 : Fin 1).val; omega
  | ⟨1, _⟩ => show win3_1.index t (1 : Fin 2) * 2 + 1 * j.val = j.val; omega

/-- What point t writes back is block t of the layer of the array and the bias row as the launch found them. -/
theorem written_back (c : Dev nD) (t : Fin cfg3.N) :
    (dat3 V c).flushed 2 t = ((cfg3.win 2).blk t).view.read (Elt Ideal)
      ((fun x r => logSoftmaxRows (biased x r)) (V c main_v59 : S100000x2.Idx → EReal) (V c main_v60 : S1x2.Idx → EReal)) := by
  show (cfg3.win 2).cut (grid3.coords t) ((dat3 V c).after 2 t) = _
  rw [after3_2]
  unfold out3_2
  rw [View.canon_unit_zero zeros]
  simp only [View.ld_unit_zero (S := S5000x2) zeros, View.ld_unit_zero (S := S1x2) zeros]
  obtain ⟨-, -, -, -, e4, e5, ht⟩ := slabs t
  funext j
  obtain ⟨p, n, rfl⟩ : ∃ (p : Fin 5000) (n : Fin 2), j = ix2 p n := ⟨j 0, j 1, eq_ix2 j⟩
  have hlt : t.val * 5000 + p.val < 100000 := by have := p.isLt; omega
  have hemb : ((cfg3.win 2).blk t).view.emb (ix2 p n) = ix2 (⟨t.val * 5000 + p.val, hlt⟩ : Fin 100000) n :=
    funext fun a => Fin.ext (by
      match a with
      | ⟨0, _⟩ => show win3_2.index t (0 : Fin 2) * 5000 + 1 * p.val = t.val * 5000 + p.val; omega
      | ⟨1, _⟩ => show win3_2.index t (1 : Fin 2) * 2 + 1 * n.val = n.val; omega)
  show k3_pay1 (iblk3 V c 0 t) (iblk3 V c 1 t) (ix2 p n)
    = (fun x r => logSoftmaxRows (biased x r)) (V c main_v59 : S100000x2.Idx → EReal) (V c main_v60 : S1x2.Idx → EReal)
        (((cfg3.win 2).blk t).view.emb (ix2 p n))
  rw [hemb, body_eq]
  show logSoftmaxRows (biased (iblk3 V c 0 t) (iblk3 V c 1 t)) (ix2 p n)
    = logSoftmaxRows (biased (V c main_v59 : S100000x2.Idx → EReal) (V c main_v60 : S1x2.Idx → EReal)) (ix2 (⟨t.val * 5000 + p.val, hlt⟩ : Fin 100000) n)
  exact logSoftmaxRows_congr _ _ p _ n fun c' =>
    biased_congr _ _ _ _ p (⟨t.val * 5000 + p.val, hlt⟩ : Fin 100000) c' (rows_block V c t p c' _ rfl) (bias_block V c t c')

/-- An index of the result array lies in point t's block iff its row is in the t-th slab. -/
theorem in_block (t : Fin cfg3.N) (i : S100000x2.Idx) :
    i ∈ ((cfg3.win 2).blk t).view.set ↔ ∀ a : Fin 2, win3_2.index t a * S5000x2.size a ≤ (i a).val
      ∧ (i a).val < win3_2.index t a * S5000x2.size a + S5000x2.size a := by
  show i ∈ ((View.whole main_v61).slice (win3_2.rect t)).set ↔ _
  rw [View.set_slice_whole, Rect.mem_set_unit]
  exact Iff.rfl

/-- Every index of the result array lies in the block of the point its row's slab names. -/
theorem tiled (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : grid3.N = 20 := N_3
  let t : Fin cfg3.N := ⟨(i 0).val / 5000, by show (i 0).val / 5000 < grid3.N; rw [hN]; omega⟩
  obtain ⟨-, -, -, -, e4, e5, -⟩ := slabs t
  have htv : t.val = (i 0).val / 5000 := rfl
  refine ⟨t, flush3_2 t, ?_⟩
  rw [in_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 2 ≤ (i 1).val ∧ (i 1).val < win3_2.index t (1 : Fin 2) * 2 + 2
    omega

/-- After the launch the result array is the layer of the array and the bias row as the launch found them. -/
theorem layer (c : Dev nD) :
    (dat3 V c).arrAt 2 cfg3.N
      = (fun x r => logSoftmaxRows (biased x r)) (V c main_v59 : S100000x2.Idx → EReal) (V c main_v60 : S1x2.Idx → EReal) :=
  (dat3 V c).arrAt_eq_of_cover 2 _ (fun t _ => written_back V c t) tiled

end Cert.KernelIdeal.LogSoftmax3

end
-- ==== Proof.RefLayers.lean ====
/-
  The reference's dense stages as functions of the stages before them.

  Between its aggregations the reference applies four dense stages: the product of the features with the first
  weights; the first bias laid along the rows and added, then the maximum with zero; the product with the second
  weights; and the second bias added, then the logarithm of the softmax of every row (a maximum-reduce from −∞ joined
  once more with −∞, the shifted rows, the sum of their exponentials, its logarithm). Each is, as a whole array, the
  plain function of the same name: a matrix product; the biased array clamped at zero; the logarithm of the softmax
  of the biased rows. A bias vector laid into a one-row array by a broadcast along axis 1 is the same array as the
  vector reshaped into that row, which is how the other program prepares it.
-/
import proofs.«163492_j40776419508665_1_alg».proof.Proof.RefRead
import proofs.«163492_j40776419508665_1_alg».proof.Proof.LibMatProd
import proofs.«163492_j40776419508665_1_alg».proof.Proof.LibPlainDot
import proofs.«163492_j40776419508665_1_alg».proof.Proof.LibColumnRow
import proofs.«163492_j40776419508665_1_alg».proof.Proof.LibRowSoftmax

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx Idealize.SL.Sem
open Cert.LibRowSoftmax

variable (x0 : (⟨S100000x128, .f32⟩ : BufTy).Contents (Elt Ideal)) (x1 : (⟨S128x64, .f32⟩ : BufTy).Contents (Elt Ideal))
  (x2 : (⟨S64, .f32⟩ : BufTy).Contents (Elt Ideal)) (x3 : (⟨S64x2, .f32⟩ : BufTy).Contents (Elt Ideal))
  (x4 : (⟨S2, .f32⟩ : BufTy).Contents (Elt Ideal)) (x5 : (⟨S2x1200000, .i32⟩ : BufTy).Contents (Elt Ideal))

/-- The first product is the matrix product of the features with the first weights. -/
theorem first_product : val_main_v30 (F := Ideal) x0 x1 = Cert.LibMatProd.mm (x0 : S100000x128.Idx → EReal) (x1 : S128x64.Idx → EReal) := by
  unfold val_main_v30
  exact Cert.LibMatProd.hostDot_eq dot_S100000x128_S128x64_S100000x64_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none _ _

/-- The rectified first layer is the aggregated array plus the first bias row, clamped at zero; the row is the bias
    vector reshaped. -/
theorem rectified (h : (⟨1, ![64]⟩ : Shape).ShapeCasts ⟨2, ![1, 64]⟩) :
    val_main_v47 (F := Ideal) x0 x1 x2 x5
      = biasRelu (val_main_v43 (F := Ideal) x0 x1 x5 : S100000x64.Idx → EReal) (shapeCast ⟨2, ![1, 64]⟩ (x2 : S64.Idx → EReal) h) := by
  simp only [val_main_v47, val_main_v46, val_main_v45, val_main_v44, val_main_call1_v0, val_main_call1_cst]
  rw [← Cert.LibColumnRow.shapeCast_row_eq_broadcastInDim (x2 : S64.Idx → EReal) h bcast_S64_S1x64_1]
  exact hostBiasRelu_eq _ _ _ _

/-- The second product is the matrix product of the rectified layer with the second weights. -/
theorem second_product : val_main_v48 (F := Ideal) x0 x1 x2 x3 x5
    = Cert.LibMatProd.mm (val_main_v47 (F := Ideal) x0 x1 x2 x5 : S100000x64.Idx → EReal) (x3 : S64x2.Idx → EReal) := by
  unfold val_main_v48
  exact Cert.LibMatProd.hostDot_eq dot_S100000x64_S64x2_S100000x2_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none _ _

/-- The result is the logarithm of the softmax of every row of the second aggregated array plus the second bias row;
    the row is the bias vector reshaped. -/
theorem result (h : (⟨1, ![2]⟩ : Shape).ShapeCasts ⟨2, ![1, 2]⟩) :
    val_main_v65 (F := Ideal) x0 x1 x2 x3 x4 x5
      = logSoftmaxRows (biased (val_main_v61 (F := Ideal) x0 x1 x2 x3 x5 : S100000x2.Idx → EReal) (shapeCast ⟨2, ![1, 2]⟩ (x4 : S2.Idx → EReal) h)) := by
  simp only [val_main_v65, val_main_call2_v10, val_main_call2_v9, val_main_call2_v8, val_main_call2_v7, val_main_call2_cst_1,
    val_main_call2_v6, val_main_call2_v5, val_main_call2_v4, val_main_call2_v3, val_main_call2_v2, val_main_call2_v1,
    val_main_call2_cst_0, val_main_call2_v0, val_main_call2_cst, val_main_v64, val_main_v63, val_main_v62]
  rw [← Cert.LibColumnRow.shapeCast_row_eq_broadcastInDim (x4 : S2.Idx → EReal) h bcast_S2_S1x2_1, hostBiased_eq]
  exact hostLogSoftmax_eq _ reducesTo_S100000x2_S100000_d1 (by decide) h_S_ bcast_S_S100000 bcast_S100000_S100000x1_0
    bcast_S100000x1_S100000x2_0_1

end Cert.ReferenceIdeal.Layers

end
-- ==== Proof.Boundaries.lean ====
/-
  The result array at the return, boundary by boundary.

  Write x0 … x5 for the six argument arrays at launch. The contents of the buffers at the boundaries between the
  program's segments are, in order:
  * after the preparation: the source and destination lists and every edge's factor, the reference's stages of x5;
    the float arguments untouched;
  * after the first launch: in its output, the product of x0 and x1 — the reference's first product;
  * after the stretch that follows: the first aggregation of that product (the same operations on the same values as
    the reference's), and the first bias reshaped into a row;
  * after the second launch: the aggregated array plus the bias row, clamped at zero — the reference's rectified layer;
  * after the third launch (which follows at once): its product with x3 — the reference's second product;
  * after the last stretch: the second aggregation, and the second bias reshaped into a row;
  * after the fourth launch: the logarithm of the softmax of the biased rows — the reference's result.
  A launch replaces only its output array and a stretch only the buffers its operations name, so the lists, the
  factors and the later arguments are carried unchanged from where they were made to where they are read.
-/
import proofs.«163492_j40776419508665_1_alg».proof.Proof.Gen.KernelIdeal.Frame
import proofs.«163492_j40776419508665_1_alg».proof.Proof.Stretches
import proofs.«163492_j40776419508665_1_alg».proof.Proof.Product0
import proofs.«163492_j40776419508665_1_alg».proof.Proof.Rectify1
import proofs.«163492_j40776419508665_1_alg».proof.Proof.Product2
import proofs.«163492_j40776419508665_1_alg».proof.Proof.LogSoftmax3
import proofs.«163492_j40776419508665_1_alg».proof.Proof.RefLayers

set_option maxRecDepth 16384

noncomputable section

namespace Cert.KernelIdeal.Boundaries

open Cert.KernelIdeal Cert.KernelIdeal.Gen
open Idealize.ShloMosaic Idealize.ShloMosaic.TcCoe Idealize.SL.Sem
open Cert.ReferenceIdeal.Read Cert.LibRowSoftmax

variable (m : (ℓ : Loc nD τ sig) → Buf (Elt Ideal) ℓ) (ρ : Dev nD → PrngReg) (c : Dev nD)

/-- The argument arrays at launch. -/
abbrev x0 : (⟨S100000x128, .f32⟩ : BufTy).Contents (Elt Ideal) := m ((c.tc : Thread nD τ).loc main_arg0)
abbrev x1 : (⟨S128x64, .f32⟩ : BufTy).Contents (Elt Ideal) := m ((c.tc : Thread nD τ).loc main_arg1)
abbrev x2 : (⟨S64, .f32⟩ : BufTy).Contents (Elt Ideal) := m ((c.tc : Thread nD τ).loc main_arg2)
abbrev x3 : (⟨S64x2, .f32⟩ : BufTy).Contents (Elt Ideal) := m ((c.tc : Thread nD τ).loc main_arg3)
abbrev x4 : (⟨S2, .f32⟩ : BufTy).Contents (Elt Ideal) := m ((c.tc : Thread nD τ).loc main_arg4)
abbrev x5 : (⟨S2x1200000, .i32⟩ : BufTy).Contents (Elt Ideal) := m ((c.tc : Thread nD τ).loc main_arg5)

/-! ## After the preparation's three stretches -/

/-! After the first: the two lists, where a count is positive, the reciprocal square roots of the counts. -/
theorem lists_sources : W1 m ρ c (Proc.devRef .tc main_v3) = val_main_v3 (F := Ideal) (x5 m c) := Stretches.lists_sources (W0 m ρ c)
theorem lists_targets : W1 m ρ c (Proc.devRef .tc main_v6) = val_main_v6 (F := Ideal) (x5 m c) := Stretches.lists_targets (W0 m ρ c)
theorem lists_positive : W1 m ρ c (Proc.devRef .tc main_v12) = val_main_v12 (F := Ideal) (x5 m c) := Stretches.lists_positive (W0 m ρ c)
theorem lists_roots : W1 m ρ c (Proc.devRef .tc main_v13) = val_main_v13 (F := Ideal) (x5 m c) := Stretches.lists_roots (W0 m ρ c)
theorem lists_zero : W1 m ρ c (Proc.devRef .tc main_cst_2) = val_main_cst_2 (F := Ideal) := Stretches.lists_zero (W0 m ρ c)
theorem lists_x0 : W1 m ρ c (Proc.devRef .tc main_arg0) = x0 m c := Stretches.lists_arg0 (W0 m ρ c)
theorem lists_x1 : W1 m ρ c (Proc.devRef .tc main_arg1) = x1 m c := Stretches.lists_arg1 (W0 m ρ c)
theorem lists_x2 : W1 m ρ c (Proc.devRef .tc main_arg2) = x2 m c := Stretches.lists_arg2 (W0 m ρ c)
theorem lists_x3 : W1 m ρ c (Proc.devRef .tc main_arg3) = x3 m c := Stretches.lists_arg3 (W0 m ρ c)
theorem lists_x4 : W1 m ρ c (Proc.devRef .tc main_arg4) = x4 m c := Stretches.lists_arg4 (W0 m ρ c)

/-! After the second: each node's factor. -/
theorem choice_factor : W2 m ρ c (Proc.devRef .tc main_v14) = val_main_v14 (F := Ideal) (x5 m c) :=
  Stretches.choice_factor (W1 m ρ c) (x5 m c) (lists_positive m ρ c) (lists_roots m ρ c) (lists_zero m ρ c)
theorem choice_sources : W2 m ρ c (Proc.devRef .tc main_v3) = val_main_v3 (F := Ideal) (x5 m c) :=
  (Stretches.choice_v3 (W1 m ρ c)).trans (lists_sources m ρ c)
theorem choice_targets : W2 m ρ c (Proc.devRef .tc main_v6) = val_main_v6 (F := Ideal) (x5 m c) :=
  (Stretches.choice_v6 (W1 m ρ c)).trans (lists_targets m ρ c)
theorem choice_x0 : W2 m ρ c (Proc.devRef .tc main_arg0) = x0 m c := (Stretches.choice_arg0 (W1 m ρ c)).trans (lists_x0 m ρ c)
theorem choice_x1 : W2 m ρ c (Proc.devRef .tc main_arg1) = x1 m c := (Stretches.choice_arg1 (W1 m ρ c)).trans (lists_x1 m ρ c)
theorem choice_x2 : W2 m ρ c (Proc.devRef .tc main_arg2) = x2 m c := (Stretches.choice_arg2 (W1 m ρ c)).trans (lists_x2 m ρ c)
theorem choice_x3 : W2 m ρ c (Proc.devRef .tc main_arg3) = x3 m c := (Stretches.choice_arg3 (W1 m ρ c)).trans (lists_x3 m ρ c)
theorem choice_x4 : W2 m ρ c (Proc.devRef .tc main_arg4) = x4 m c := (Stretches.choice_arg4 (W1 m ρ c)).trans (lists_x4 m ρ c)

/-! After the third: every edge's factor. -/
theorem prepared_factors : W3 m ρ c (Proc.devRef .tc main_v29) = val_main_v29 (F := Ideal) (x5 m c) :=
  Stretches.edges_factors (W2 m ρ c) (x5 m c) (choice_factor m ρ c) (choice_sources m ρ c) (choice_targets m ρ c)
theorem prepared_sources : W3 m ρ c (Proc.devRef .tc main_v3) = val_main_v3 (F := Ideal) (x5 m c) :=
  (Stretches.edges_v3 (W2 m ρ c)).trans (choice_sources m ρ c)
theorem prepared_targets : W3 m ρ c (Proc.devRef .tc main_v6) = val_main_v6 (F := Ideal) (x5 m c) :=
  (Stretches.edges_v6 (W2 m ρ c)).trans (choice_targets m ρ c)
theorem prepared_x0 : W3 m ρ c (Proc.devRef .tc main_arg0) = x0 m c := (Stretches.edges_arg0 (W2 m ρ c)).trans (choice_x0 m ρ c)
theorem prepared_x1 : W3 m ρ c (Proc.devRef .tc main_arg1) = x1 m c := (Stretches.edges_arg1 (W2 m ρ c)).trans (choice_x1 m ρ c)
theorem prepared_x2 : W3 m ρ c (Proc.devRef .tc main_arg2) = x2 m c := (Stretches.edges_arg2 (W2 m ρ c)).trans (choice_x2 m ρ c)
theorem prepared_x3 : W3 m ρ c (Proc.devRef .tc main_arg3) = x3 m c := (Stretches.edges_arg3 (W2 m ρ c)).trans (choice_x3 m ρ c)
theorem prepared_x4 : W3 m ρ c (Proc.devRef .tc main_arg4) = x4 m c := (Stretches.edges_arg4 (W2 m ρ c)).trans (choice_x4 m ρ c)

/-! ## After the first launch -/

theorem first_product : W4 m ρ c (Proc.devRef .tc main_v30) = val_main_v30 (F := Ideal) (x0 m c) (x1 m c) := by
  refine (W4_arr m ρ c 2).trans ((Product0.product (V3 m ρ) c).trans ?_)
  rw [Cert.ReferenceIdeal.Layers.first_product]
  exact congrArg₂ (Cert.LibMatProd.mm (a := 100000) (k := 128) (n := 64)) (prepared_x0 m ρ c) (prepared_x1 m ρ c)

theorem first_sources : W4 m ρ c (Proc.devRef .tc main_v3) = val_main_v3 (F := Ideal) (x5 m c) :=
  (W4_of_ne m ρ c main_v3 (by decide)).trans (prepared_sources m ρ c)
theorem first_targets : W4 m ρ c (Proc.devRef .tc main_v6) = val_main_v6 (F := Ideal) (x5 m c) :=
  (W4_of_ne m ρ c main_v6 (by decide)).trans (prepared_targets m ρ c)
theorem first_factors : W4 m ρ c (Proc.devRef .tc main_v29) = val_main_v29 (F := Ideal) (x5 m c) :=
  (W4_of_ne m ρ c main_v29 (by decide)).trans (prepared_factors m ρ c)
theorem first_x2 : W4 m ρ c (Proc.devRef .tc main_arg2) = x2 m c :=
  (W4_of_ne m ρ c main_arg2 (by decide)).trans (prepared_x2 m ρ c)
theorem first_x3 : W4 m ρ c (Proc.devRef .tc main_arg3) = x3 m c :=
  (W4_of_ne m ρ c main_arg3 (by decide)).trans (prepared_x3 m ρ c)
theorem first_x4 : W4 m ρ c (Proc.devRef .tc main_arg4) = x4 m c :=
  (W4_of_ne m ρ c main_arg4 (by decide)).trans (prepared_x4 m ρ c)

/-! ## After the stretch between the first and the second launch -/

theorem first_aggregate : W5 m ρ c (Proc.devRef .tc main_v43) = val_main_v43 (F := Ideal) (x0 m c) (x1 m c) (x5 m c) :=
  Stretches.first_aggregate (W4 m ρ c) (x0 m c) (x1 m c) (x5 m c) (first_product m ρ c) (first_sources m ρ c)
    (first_targets m ρ c) (first_factors m ρ c)

theorem first_bias_row : W5 m ρ c (Proc.devRef .tc main_v44) = shapeCast S1x64 (x2 m c : S64.Idx → EReal) shapeCasts_S64_S1x64 :=
  (Stretches.first_bias_row (W4 m ρ c)).trans (congrArg (fun v : S64.Idx → EReal => shapeCast S1x64 v shapeCasts_S64_S1x64) (first_x2 m ρ c))

theorem second_sources : W5 m ρ c (Proc.devRef .tc main_v3) = val_main_v3 (F := Ideal) (x5 m c) :=
  (Stretches.first_v3 (W4 m ρ c)).trans (first_sources m ρ c)
theorem second_targets : W5 m ρ c (Proc.devRef .tc main_v6) = val_main_v6 (F := Ideal) (x5 m c) :=
  (Stretches.first_v6 (W4 m ρ c)).trans (first_targets m ρ c)
theorem second_factors : W5 m ρ c (Proc.devRef .tc main_v29) = val_main_v29 (F := Ideal) (x5 m c) :=
  (Stretches.first_v29 (W4 m ρ c)).trans (first_factors m ρ c)
theorem second_x3 : W5 m ρ c (Proc.devRef .tc main_arg3) = x3 m c := (Stretches.first_arg3 (W4 m ρ c)).trans (first_x3 m ρ c)
theorem second_x4 : W5 m ρ c (Proc.devRef .tc main_arg4) = x4 m c := (Stretches.first_arg4 (W4 m ρ c)).trans (first_x4 m ρ c)

/-! ## After the second launch -/

theorem rectified : W6 m ρ c (Proc.devRef .tc main_v45) = val_main_v47 (F := Ideal) (x0 m c) (x1 m c) (x2 m c) (x5 m c) := by
  refine (W6_arr m ρ c 2).trans ((Rectify1.layer (V5 m ρ) c).trans ?_)
  rw [Cert.ReferenceIdeal.Layers.rectified _ _ _ _ shapeCasts_S64_S1x64]
  exact congrArg₂ (biasRelu (a := 100000) (b := 64)) (first_aggregate m ρ c) (first_bias_row m ρ c)

theorem third_sources : W6 m ρ c (Proc.devRef .tc main_v3) = val_main_v3 (F := Ideal) (x5 m c) :=
  (W6_of_ne m ρ c main_v3 (by decide)).trans (second_sources m ρ c)
theorem third_targets : W6 m ρ c (Proc.devRef .tc main_v6) = val_main_v6 (F := Ideal) (x5 m c) :=
  (W6_of_ne m ρ c main_v6 (by decide)).trans (second_targets m ρ c)
theorem third_factors : W6 m ρ c (Proc.devRef .tc main_v29) = val_main_v29 (F := Ideal) (x5 m c) :=
  (W6_of_ne m ρ c main_v29 (by decide)).trans (second_factors m ρ c)
theorem third_x3 : W6 m ρ c (Proc.devRef .tc main_arg3) = x3 m c :=
  (W6_of_ne m ρ c main_arg3 (by decide)).trans (second_x3 m ρ c)
theorem third_x4 : W6 m ρ c (Proc.devRef .tc main_arg4) = x4 m c :=
  (W6_of_ne m ρ c main_arg4 (by decide)).trans (second_x4 m ρ c)

/-! ## After the third launch -/

theorem second_product : W7 m ρ c (Proc.devRef .tc main_v46)
    = val_main_v48 (F := Ideal) (x0 m c) (x1 m c) (x2 m c) (x3 m c) (x5 m c) := by
  refine (W7_arr m ρ c 2).trans ((Product2.product (V6 m ρ) c).trans ?_)
  rw [Cert.ReferenceIdeal.Layers.second_product]
  exact congrArg₂ (Cert.LibMatProd.mm (a := 100000) (k := 64) (n := 2)) (rectified m ρ c) (third_x3 m ρ c)

theorem fourth_sources : W7 m ρ c (Proc.devRef .tc main_v3) = val_main_v3 (F := Ideal) (x5 m c) :=
  (W7_of_ne m ρ c main_v3 (by decide)).trans (third_sources m ρ c)
theorem fourth_targets : W7 m ρ c (Proc.devRef .tc main_v6) = val_main_v6 (F := Ideal) (x5 m c) :=
  (W7_of_ne m ρ c main_v6 (by decide)).trans (third_targets m ρ c)
theorem fourth_factors : W7 m ρ c (Proc.devRef .tc main_v29) = val_main_v29 (F := Ideal) (x5 m c) :=
  (W7_of_ne m ρ c main_v29 (by decide)).trans (third_factors m ρ c)
theorem fourth_x4 : W7 m ρ c (Proc.devRef .tc main_arg4) = x4 m c :=
  (W7_of_ne m ρ c main_arg4 (by decide)).trans (third_x4 m ρ c)

/-! ## After the last stretch -/

theorem second_aggregate : W8 m ρ c (Proc.devRef .tc main_v59)
    = val_main_v61 (F := Ideal) (x0 m c) (x1 m c) (x2 m c) (x3 m c) (x5 m c) :=
  Stretches.second_aggregate (W7 m ρ c) (x0 m c) (x1 m c) (x2 m c) (x3 m c) (x5 m c) (second_product m ρ c)
    (fourth_sources m ρ c) (fourth_targets m ρ c) (fourth_factors m ρ c)

theorem second_bias_row : W8 m ρ c (Proc.devRef .tc main_v60) = shapeCast S1x2 (x4 m c : S2.Idx → EReal) shapeCasts_S2_S1x2 :=
  (Stretches.second_bias_row (W7 m ρ c)).trans (congrArg (fun v : S2.Idx → EReal => shapeCast S1x2 v shapeCasts_S2_S1x2) (fourth_x4 m ρ c))

/-! ## After the fourth launch: the result -/

/-- At the return the result array holds the reference's result stage of the six argument arrays. -/
theorem result : W9 m ρ c (Proc.devRef .tc main_v61)
    = val_main_v65 (F := Ideal) (x0 m c) (x1 m c) (x2 m c) (x3 m c) (x4 m c) (x5 m c) := by
  refine (W9_arr m ρ c 2).trans ((LogSoftmax3.layer (V8 m ρ) c).trans ?_)
  rw [Cert.ReferenceIdeal.Layers.result _ _ _ _ _ _ shapeCasts_S2_S1x2]
  exact congrArg (logSoftmaxRows (a := 100000) (b := 2))
    (congrArg₂ (biased (a := 100000) (b := 2)) (second_aggregate m ρ c) (second_bias_row m ρ c))

end Cert.KernelIdeal.Boundaries

end
-- ==== Proof.RefValue.lean ====
/-
  The reference's result array: the fold of its operations over any contents of its buffers is the result stage of
  what those contents hold in the six argument buffers.

  The reference is a straight line of 98 whole-array operations, each writing one buffer that no later operation
  writes again. Folding the operations over the contents therefore leaves in the result buffer the composition of the
  operations along the data flow from the arguments, which is what the stage functions spell one operation at a time.
  The line is cut into eight consecutive pieces — the lists and the counts; the choice of each node's factor; the
  edges' factors; the first product, aggregation and bias; the maximum with zero; the second product, aggregation and
  bias; the rows shifted by their maxima; the logarithm of the sum of their exponentials subtracted — and each piece, started from ANY contents `U`, is shown to leave in the
  buffers the later pieces read the stage functions of what `U` holds in the buffers it reads, those kept folded.
  A buffer a piece does not write keeps what `U` holds there.
-/
import proofs.«163492_j40776419508665_1_alg».proof.Proof.RefRead

set_option maxRecDepth 16384

noncomputable section

namespace Cert.ReferenceIdeal.FoldValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- Rewrites what is left of the operations' results after the one-pass rewriting: a read that sits inside a pair of
    a joined list (a shape with its array) is out of that pass's reach, and is rewritten here one operation at a time. -/
local macro "results_inside" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- Folding a joined list is folding its second part over the fold of its first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- Operations i … j − 1 of the reference. -/
abbrev seg (i j : Nat) : List (HloOp τ sig (Elt Ideal)) := ((ops (F := Ideal)).take j).drop i

/-- The reference's operations are the eight pieces in order. -/
theorem ops_pieces : ops (F := Ideal)
    = seg 0 18 ++ (seg 18 21 ++ (seg 21 40 ++ (seg 40 60 ++ (seg 60 63 ++ (seg 63 83 ++ (seg 83 91 ++ seg 91 98)))))) := by
  rfl

/-- A value moved to a typed reference's own buffer type and back is the value. -/
theorem ofBuf_toBuf {T : BufTy} (x : TRef sig T) (v : T.Contents (Elt Ideal)) : x.ofBuf (x.toBuf v) = v := by
  obtain ⟨r, h, hd, hs⟩ := x
  subst h
  rfl

variable (U : Valuation τ sig (Elt Ideal))

/-! ## Piece 1: the two lists, the counts, their reciprocal square roots -/

/-- The source list with the self-loops appended. -/
theorem p1_sources :
    after (seg 0 18) U (Proc.devRef .tc main_v3) = val_main_v3 (F := Ideal) (U (Proc.devRef .tc main_arg5)) := by
  simp only [seg, ops, List.take_succ_cons, List.take_zero, List.drop_succ_cons, List.drop_zero]
  after_results_simp
  results_inside
  rfl
/-- The destination list with the self-loops appended. -/
theorem p1_targets :
    after (seg 0 18) U (Proc.devRef .tc main_v6) = val_main_v6 (F := Ideal) (U (Proc.devRef .tc main_arg5)) := by
  simp only [seg, ops, List.take_succ_cons, List.take_zero, List.drop_succ_cons, List.drop_zero]
  after_results_simp
  results_inside
  rfl
/-- Where a node's count of incoming edges is positive. -/
theorem p1_positive :
    after (seg 0 18) U (Proc.devRef .tc main_v12) = val_main_v12 (F := Ideal) (U (Proc.devRef .tc main_arg5)) := by
  simp only [seg, ops, List.take_succ_cons, List.take_zero, List.drop_succ_cons, List.drop_zero]
  after_results_simp
  results_inside
  rfl
/-- The reciprocal square roots of the counts. -/
theorem p1_roots :
    after (seg 0 18) U (Proc.devRef .tc main_v13) = val_main_v13 (F := Ideal) (U (Proc.devRef .tc main_arg5)) := by
  simp only [seg, ops, List.take_succ_cons, List.take_zero, List.drop_succ_cons, List.drop_zero]
  after_results_simp
  results_inside
  rfl
/-- The zero put where a count is not positive. -/
theorem p1_zero :
    after (seg 0 18) U (Proc.devRef .tc main_cst_2) = val_main_cst_2 (F := Ideal) := by
  simp only [seg, ops, List.take_succ_cons, List.take_zero, List.drop_succ_cons, List.drop_zero]
  after_results_simp
  rfl
theorem p1_arg0 : after (seg 0 18) U (Proc.devRef .tc main_arg0) = U (Proc.devRef .tc main_arg0) := by
  simp only [seg, ops, List.take_succ_cons, List.take_zero, List.drop_succ_cons, List.drop_zero]
  after_results_simp
theorem p1_arg1 : after (seg 0 18) U (Proc.devRef .tc main_arg1) = U (Proc.devRef .tc main_arg1) := by
  simp only [seg, ops, List.take_succ_cons, List.take_zero, List.drop_succ_cons, List.drop_zero]
  after_results_simp
theorem p1_arg2 : after (seg 0 18) U (Proc.devRef .tc main_arg2) = U (Proc.devRef .tc main_arg2) := by
  simp only [seg, ops, List.take_succ_cons, List.take_zero, List.drop_succ_cons, List.drop_zero]
  after_results_simp
theorem p1_arg3 : after (seg 0 18) U (Proc.devRef .tc main_arg3) = U (Proc.devRef .tc main_arg3) := by
  simp only [seg, ops, List.take_succ_cons, List.take_zero, List.drop_succ_cons, List.drop_zero]
  after_results_simp
theorem p1_arg4 : after (seg 0 18) U (Proc.devRef .tc main_arg4) = U (Proc.devRef .tc main_arg4) := by
  simp only [seg, ops, List.take_succ_cons, List.take_zero, List.drop_succ_cons, List.drop_zero]
  after_results_simp

/-! ## Piece 2: each node's factor -/

/-- The choice itself: each node's factor is the reciprocal square root where the count is positive, else the zero. -/
theorem p2_selects : after (seg 18 21) U (Proc.devRef .tc main_v14)
    = select (U (Proc.devRef .tc main_v12) : S100000.Idx → BitVec 1) (U (Proc.devRef .tc main_v13) : S100000.Idx → EReal)
        (broadcastInDim S100000 ![] bcast_S_S100000 (id (U (Proc.devRef .tc main_cst_2) : S_.Idx → EReal))) := by
  simp only [seg, ops, List.take_succ_cons, List.take_zero, List.drop_succ_cons, List.drop_zero]
  after_results_simp
  rfl

/-- Each node's factor, from the three arrays the choice reads. -/
theorem p2_factor (x5 : (⟨S2x1200000, .i32⟩ : BufTy).Contents (Elt Ideal))
    (h_v12 : U (Proc.devRef .tc main_v12) = val_main_v12 (F := Ideal) x5)
    (h_v13 : U (Proc.devRef .tc main_v13) = val_main_v13 (F := Ideal) x5)
    (h_cst_2 : U (Proc.devRef .tc main_cst_2) = val_main_cst_2 (F := Ideal)) :
    after (seg 18 21) U (Proc.devRef .tc main_v14) = val_main_v14 (F := Ideal) x5 := by
  rw [p2_selects, h_v12, h_v13, h_cst_2]
  rfl
theorem p2_v3 : after (seg 18 21) U (Proc.devRef .tc main_v3) = U (Proc.devRef .tc main_v3) := by
  simp only [seg, ops, List.take_succ_cons, List.take_zero, List.drop_succ_cons, List.drop_zero]
  after_results_simp
theorem p2_v6 : after (seg 18 21) U (Proc.devRef .tc main_v6) = U (Proc.devRef .tc main_v6) := by
  simp only [seg, ops, List.take_succ_cons, List.take_zero, List.drop_succ_cons, List.drop_zero]
  after_results_simp
theorem p2_arg0 : after (seg 18 21) U (Proc.devRef .tc main_arg0) = U (Proc.devRef .tc main_arg0) := by
  simp only [seg, ops, List.take_succ_cons, List.take_zero, List.drop_succ_cons, List.drop_zero]
  after_results_simp
theorem p2_arg1 : after (seg 18 21) U (Proc.devRef .tc main_arg1) = U (Proc.devRef .tc main_arg1) := by
  simp only [seg, ops, List.take_succ_cons, List.take_zero, List.drop_succ_cons, List.drop_zero]
  after_results_simp
theorem p2_arg2 : after (seg 18 21) U (Proc.devRef .tc main_arg2) = U (Proc.devRef .tc main_arg2) := by
  simp only [seg, ops, List.take_succ_cons, List.take_zero, List.drop_succ_cons, List.drop_zero]
  after_results_simp
theorem p2_arg3 : after (seg 18 21) U (Proc.devRef .tc main_arg3) = U (Proc.devRef .tc main_arg3) := by
  simp only [seg, ops, List.take_succ_cons, List.take_zero, List.drop_succ_cons, List.drop_zero]
  after_results_simp
theorem p2_arg4 : after (seg 18 21) U (Proc.devRef .tc main_arg4) = U (Proc.devRef .tc main_arg4) := by
  simp only [seg, ops, List.take_succ_cons, List.take_zero, List.drop_succ_cons, List.drop_zero]
  after_results_simp

/-! ## Piece 3: every edge's factor -/

/-- Every edge's factor: the nodes' factors gathered at its two ends, multiplied. -/
theorem p3_factors (x5 : (⟨S2x1200000, .i32⟩ : BufTy).Contents (Elt Ideal))
    (h_v14 : U (Proc.devRef .tc main_v14) = val_main_v14 (F := Ideal) x5)
    (h_v3 : U (Proc.devRef .tc main_v3) = val_main_v3 (F := Ideal) x5)
    (h_v6 : U (Proc.devRef .tc main_v6) = val_main_v6 (F := Ideal) x5) :
    after (seg 21 40) U (Proc.devRef .tc main_v29) = val_main_v29 (F := Ideal) x5 := by
  simp only [seg, ops, List.take_succ_cons, List.take_zero, List.drop_succ_cons, List.drop_zero]
  after_results_simp
  rw [h_v14, h_v3, h_v6]
  rfl
theorem p3_v3 : after (seg 21 40) U (Proc.devRef .tc main_v3) = U (Proc.devRef .tc main_v3) := by
  simp only [seg, ops, List.take_succ_cons, List.take_zero, List.drop_succ_cons, List.drop_zero]
  after_results_simp
theorem p3_v6 : after (seg 21 40) U (Proc.devRef .tc main_v6) = U (Proc.devRef .tc main_v6) := by
  simp only [seg, ops, List.take_succ_cons, List.take_zero, List.drop_succ_cons, List.drop_zero]
  after_results_simp
theorem p3_arg0 : after (seg 21 40) U (Proc.devRef .tc main_arg0) = U (Proc.devRef .tc main_arg0) := by
  simp only [seg, ops, List.take_succ_cons, List.take_zero, List.drop_succ_cons, List.drop_zero]
  after_results_simp
theorem p3_arg1 : after (seg 21 40) U (Proc.devRef .tc main_arg1) = U (Proc.devRef .tc main_arg1) := by
  simp only [seg, ops, List.take_succ_cons, List.take_zero, List.drop_succ_cons, List.drop_zero]
  after_results_simp
theorem p3_arg2 : after (seg 21 40) U (Proc.devRef .tc main_arg2) = U (Proc.devRef .tc main_arg2) := by
  simp only [seg, ops, List.take_succ_cons, List.take_zero, List.drop_succ_cons, List.drop_zero]
  after_results_simp
theorem p3_arg3 : after (seg 21 40) U (Proc.devRef .tc main_arg3) = U (Proc.devRef .tc main_arg3) := by
  simp only [seg, ops, List.take_succ_cons, List.take_zero, List.drop_succ_cons, List.drop_zero]
  after_results_simp
theorem p3_arg4 : after (seg 21 40) U (Proc.devRef .tc main_arg4) = U (Proc.devRef .tc main_arg4) := by
  simp only [seg, ops, List.take_succ_cons, List.take_zero, List.drop_succ_cons, List.drop_zero]
  after_results_simp

/-! ## Piece 4: the first product, its aggregation, the first bias added -/

/-- The aggregated first product plus the first bias laid along the rows. -/
theorem p4_biased (x0 : (⟨S100000x128, .f32⟩ : BufTy).Contents (Elt Ideal)) (x1 : (⟨S128x64, .f32⟩ : BufTy).Contents (Elt Ideal)) (x2 : (⟨S64, .f32⟩ : BufTy).Contents (Elt Ideal)) (x5 : (⟨S2x1200000, .i32⟩ : BufTy).Contents (Elt Ideal))
    (h_arg0 : U (Proc.devRef .tc main_arg0) = x0) (h_arg1 : U (Proc.devRef .tc main_arg1) = x1) (h_arg2 : U (Proc.devRef .tc main_arg2) = x2)
    (h_v3 : U (Proc.devRef .tc main_v3) = val_main_v3 (F := Ideal) x5) (h_v6 : U (Proc.devRef .tc main_v6) = val_main_v6 (F := Ideal) x5)
    (h_v29 : U (Proc.devRef .tc main_v29) = val_main_v29 (F := Ideal) x5) :
    after (seg 40 60) U (Proc.devRef .tc main_v46) = val_main_v46 (F := Ideal) x0 x1 x2 x5 := by
  simp only [seg, ops, List.take_succ_cons, List.take_zero, List.drop_succ_cons, List.drop_zero]
  after_results_simp
  rw [h_arg0, h_arg1, h_arg2, h_v3, h_v6, h_v29]
  rfl
theorem p4_v3 : after (seg 40 60) U (Proc.devRef .tc main_v3) = U (Proc.devRef .tc main_v3) := by
  simp only [seg, ops, List.take_succ_cons, List.take_zero, List.drop_succ_cons, List.drop_zero]
  after_results_simp
theorem p4_v6 : after (seg 40 60) U (Proc.devRef .tc main_v6) = U (Proc.devRef .tc main_v6) := by
  simp only [seg, ops, List.take_succ_cons, List.take_zero, List.drop_succ_cons, List.drop_zero]
  after_results_simp
theorem p4_v29 : after (seg 40 60) U (Proc.devRef .tc main_v29) = U (Proc.devRef .tc main_v29) := by
  simp only [seg, ops, List.take_succ_cons, List.take_zero, List.drop_succ_cons, List.drop_zero]
  after_results_simp
theorem p4_arg3 : after (seg 40 60) U (Proc.devRef .tc main_arg3) = U (Proc.devRef .tc main_arg3) := by
  simp only [seg, ops, List.take_succ_cons, List.take_zero, List.drop_succ_cons, List.drop_zero]
  after_results_simp
theorem p4_arg4 : after (seg 40 60) U (Proc.devRef .tc main_arg4) = U (Proc.devRef .tc main_arg4) := by
  simp only [seg, ops, List.take_succ_cons, List.take_zero, List.drop_succ_cons, List.drop_zero]
  after_results_simp

/-! ## Piece 5: the maximum with zero -/

/-- The maximum itself: entry by entry the larger of the biased array and a broadcast zero. -/
theorem p5_maximum : after (seg 60 63) U (Proc.devRef .tc main_v47)
    = maximumf (U (Proc.devRef .tc main_v46) : S100000x64.Idx → EReal)
        (broadcastInDim S100000x64 ![] bcast_S_S100000x64 (constant (F := Ideal) S_ .f32 0x00000000#32)) := by
  simp only [seg, ops, List.take_succ_cons, List.take_zero, List.drop_succ_cons, List.drop_zero]
  after_results_simp
  rfl

/-- The rectified first layer, from the biased array it reads. -/
theorem p5_rectified (x0 : (⟨S100000x128, .f32⟩ : BufTy).Contents (Elt Ideal)) (x1 : (⟨S128x64, .f32⟩ : BufTy).Contents (Elt Ideal)) (x2 : (⟨S64, .f32⟩ : BufTy).Contents (Elt Ideal)) (x5 : (⟨S2x1200000, .i32⟩ : BufTy).Contents (Elt Ideal))
    (h_v46 : U (Proc.devRef .tc main_v46) = val_main_v46 (F := Ideal) x0 x1 x2 x5) :
    after (seg 60 63) U (Proc.devRef .tc main_v47) = val_main_v47 (F := Ideal) x0 x1 x2 x5 := by
  rw [p5_maximum, h_v46]
  rfl
theorem p5_v3 : after (seg 60 63) U (Proc.devRef .tc main_v3) = U (Proc.devRef .tc main_v3) := by
  simp only [seg, ops, List.take_succ_cons, List.take_zero, List.drop_succ_cons, List.drop_zero]
  after_results_simp
theorem p5_v6 : after (seg 60 63) U (Proc.devRef .tc main_v6) = U (Proc.devRef .tc main_v6) := by
  simp only [seg, ops, List.take_succ_cons, List.take_zero, List.drop_succ_cons, List.drop_zero]
  after_results_simp
theorem p5_v29 : after (seg 60 63) U (Proc.devRef .tc main_v29) = U (Proc.devRef .tc main_v29) := by
  simp only [seg, ops, List.take_succ_cons, List.take_zero, List.drop_succ_cons, List.drop_zero]
  after_results_simp
theorem p5_arg3 : after (seg 60 63) U (Proc.devRef .tc main_arg3) = U (Proc.devRef .tc main_arg3) := by
  simp only [seg, ops, List.take_succ_cons, List.take_zero, List.drop_succ_cons, List.drop_zero]
  after_results_simp
theorem p5_arg4 : after (seg 60 63) U (Proc.devRef .tc main_arg4) = U (Proc.devRef .tc main_arg4) := by
  simp only [seg, ops, List.take_succ_cons, List.take_zero, List.drop_succ_cons, List.drop_zero]
  after_results_simp

/-! ## Piece 6: the second product, its aggregation, the second bias added -/

/-- The aggregated second product plus the second bias laid along the rows. -/
theorem p6_biased (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x2, .f32⟩ : BufTy).Contents (Elt Ideal)) (x4 : (⟨S2, .f32⟩ : BufTy).Contents (Elt Ideal)) (x5 : (⟨S2x1200000, .i32⟩ : BufTy).Contents (Elt Ideal))
    (h_v47 : U (Proc.devRef .tc main_v47) = val_main_v47 (F := Ideal) x0 x1 x2 x5)
    (h_arg3 : U (Proc.devRef .tc main_arg3) = x3) (h_arg4 : U (Proc.devRef .tc main_arg4) = x4)
    (h_v3 : U (Proc.devRef .tc main_v3) = val_main_v3 (F := Ideal) x5) (h_v6 : U (Proc.devRef .tc main_v6) = val_main_v6 (F := Ideal) x5)
    (h_v29 : U (Proc.devRef .tc main_v29) = val_main_v29 (F := Ideal) x5) :
    after (seg 63 83) U (Proc.devRef .tc main_v64) = val_main_v64 (F := Ideal) x0 x1 x2 x3 x4 x5 := by
  simp only [seg, ops, List.take_succ_cons, List.take_zero, List.drop_succ_cons, List.drop_zero]
  after_results_simp
  rw [h_v47, h_arg3, h_arg4, h_v3, h_v6, h_v29]
  rfl

/-! ## Piece 7: every row shifted by its maximum -/

/-- The shift itself: the biased array minus, laid along the rows, its row maxima from −∞ joined once more with −∞. -/
theorem p7_shift : after (seg 83 91) U (Proc.devRef .tc main_call2_v5)
    = subf (F := Ideal) (U (Proc.devRef .tc main_v64) : FVec Ideal S100000x2 .f32)
        (broadcastInDim S100000x2 ![0, 1] bcast_S100000x1_S100000x2_0_1
          (broadcastInDim S100000x1 ![0] bcast_S100000_S100000x1_0
            (maximumf (F := Ideal) (broadcastInDim S100000 ![] bcast_S_S100000 (constant (F := Ideal) S_ .f32 0xFF800000#32))
              (Host.reduce (FloatOps.maximumf (F := Ideal) (φ := .f32)) (U (Proc.devRef .tc main_v64) : FVec Ideal S100000x2 .f32)
                (constant (F := Ideal) S_ .f32 0xFF800000#32) reducesTo_S100000x2_S100000_d1 h_S_)))) := by
  simp only [seg, ops, List.take_succ_cons, List.take_zero, List.drop_succ_cons, List.drop_zero]
  after_results_simp
  simp only [ofBuf_toBuf]
  rfl

/-- The shifted rows, from the biased array they read. -/
theorem p7_shifted (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x2, .f32⟩ : BufTy).Contents (Elt Ideal)) (x4 : (⟨S2, .f32⟩ : BufTy).Contents (Elt Ideal)) (x5 : (⟨S2x1200000, .i32⟩ : BufTy).Contents (Elt Ideal))
    (h_v64 : U (Proc.devRef .tc main_v64) = val_main_v64 (F := Ideal) x0 x1 x2 x3 x4 x5) :
    after (seg 83 91) U (Proc.devRef .tc main_call2_v5) = val_main_call2_v5 (F := Ideal) x0 x1 x2 x3 x4 x5 := by
  rw [p7_shift, h_v64]
  rfl

/-! ## Piece 8: the logarithm of the sum of the exponentials subtracted -/

/-- The last steps themselves: the shifted array minus, laid along the rows, the logarithm of the sum-reduce from zero
    of its exponentials. -/
theorem p8_normalise : after (seg 91 98) U (Proc.devRef .tc main_v65)
    = subf (U (Proc.devRef .tc main_call2_v5) : S100000x2.Idx → EReal)
        (broadcastInDim S100000x2 ![0, 1] bcast_S100000x1_S100000x2_0_1
          (Host.log (broadcastInDim S100000x1 ![0] bcast_S100000_S100000x1_0
            (Host.reduceAdd (Host.exp (U (Proc.devRef .tc main_call2_v5) : S100000x2.Idx → EReal))
              (constant (F := Ideal) S_ .f32 0x00000000#32) reducesTo_S100000x2_S100000_d1 h_S_)))) := by
  simp only [seg, ops, List.take_succ_cons, List.take_zero, List.drop_succ_cons, List.drop_zero]
  after_results_simp
  rfl

/-- The result, from the shifted rows it reads. -/
theorem p8_result (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x2, .f32⟩ : BufTy).Contents (Elt Ideal)) (x4 : (⟨S2, .f32⟩ : BufTy).Contents (Elt Ideal)) (x5 : (⟨S2x1200000, .i32⟩ : BufTy).Contents (Elt Ideal))
    (h_v5 : U (Proc.devRef .tc main_call2_v5) = val_main_call2_v5 (F := Ideal) x0 x1 x2 x3 x4 x5) :
    after (seg 91 98) U (Proc.devRef .tc main_v65) = val_main_v65 (F := Ideal) x0 x1 x2 x3 x4 x5 := by
  rw [p8_normalise, h_v5]
  rfl

/-! ## The pieces in order -/

/-- The contents after the first k pieces. -/
abbrev V1 : Valuation τ sig (Elt Ideal) := after (seg 0 18) U
abbrev V2 : Valuation τ sig (Elt Ideal) := after (seg 18 21) (V1 U)
abbrev V3 : Valuation τ sig (Elt Ideal) := after (seg 21 40) (V2 U)
abbrev V4 : Valuation τ sig (Elt Ideal) := after (seg 40 60) (V3 U)
abbrev V5 : Valuation τ sig (Elt Ideal) := after (seg 60 63) (V4 U)
abbrev V6 : Valuation τ sig (Elt Ideal) := after (seg 63 83) (V5 U)
abbrev V7 : Valuation τ sig (Elt Ideal) := after (seg 83 91) (V6 U)

theorem v1_arg0 : V1 U (Proc.devRef .tc main_arg0) = U (Proc.devRef .tc main_arg0) := p1_arg0 U
theorem v1_arg1 : V1 U (Proc.devRef .tc main_arg1) = U (Proc.devRef .tc main_arg1) := p1_arg1 U
theorem v1_arg2 : V1 U (Proc.devRef .tc main_arg2) = U (Proc.devRef .tc main_arg2) := p1_arg2 U
theorem v1_arg3 : V1 U (Proc.devRef .tc main_arg3) = U (Proc.devRef .tc main_arg3) := p1_arg3 U
theorem v1_arg4 : V1 U (Proc.devRef .tc main_arg4) = U (Proc.devRef .tc main_arg4) := p1_arg4 U
theorem v1_v3 : V1 U (Proc.devRef .tc main_v3) = val_main_v3 (F := Ideal) (U (Proc.devRef .tc main_arg5)) := p1_sources U
theorem v1_v6 : V1 U (Proc.devRef .tc main_v6) = val_main_v6 (F := Ideal) (U (Proc.devRef .tc main_arg5)) := p1_targets U
theorem v1_v12 : V1 U (Proc.devRef .tc main_v12) = val_main_v12 (F := Ideal) (U (Proc.devRef .tc main_arg5)) := p1_positive U
theorem v1_v13 : V1 U (Proc.devRef .tc main_v13) = val_main_v13 (F := Ideal) (U (Proc.devRef .tc main_arg5)) := p1_roots U
theorem v1_cst_2 : V1 U (Proc.devRef .tc main_cst_2) = val_main_cst_2 (F := Ideal) := p1_zero U

theorem v2_arg0 : V2 U (Proc.devRef .tc main_arg0) = U (Proc.devRef .tc main_arg0) := (p2_arg0 (V1 U)).trans (v1_arg0 U)
theorem v2_arg1 : V2 U (Proc.devRef .tc main_arg1) = U (Proc.devRef .tc main_arg1) := (p2_arg1 (V1 U)).trans (v1_arg1 U)
theorem v2_arg2 : V2 U (Proc.devRef .tc main_arg2) = U (Proc.devRef .tc main_arg2) := (p2_arg2 (V1 U)).trans (v1_arg2 U)
theorem v2_arg3 : V2 U (Proc.devRef .tc main_arg3) = U (Proc.devRef .tc main_arg3) := (p2_arg3 (V1 U)).trans (v1_arg3 U)
theorem v2_arg4 : V2 U (Proc.devRef .tc main_arg4) = U (Proc.devRef .tc main_arg4) := (p2_arg4 (V1 U)).trans (v1_arg4 U)
theorem v2_v3 : V2 U (Proc.devRef .tc main_v3) = val_main_v3 (F := Ideal) (U (Proc.devRef .tc main_arg5)) := (p2_v3 (V1 U)).trans (v1_v3 U)
theorem v2_v6 : V2 U (Proc.devRef .tc main_v6) = val_main_v6 (F := Ideal) (U (Proc.devRef .tc main_arg5)) := (p2_v6 (V1 U)).trans (v1_v6 U)
theorem v2_v14 : V2 U (Proc.devRef .tc main_v14) = val_main_v14 (F := Ideal) (U (Proc.devRef .tc main_arg5)) :=
  p2_factor (V1 U) (U (Proc.devRef .tc main_arg5)) (v1_v12 U) (v1_v13 U) (v1_cst_2 U)

theorem v3_arg0 : V3 U (Proc.devRef .tc main_arg0) = U (Proc.devRef .tc main_arg0) := (p3_arg0 (V2 U)).trans (v2_arg0 U)
theorem v3_arg1 : V3 U (Proc.devRef .tc main_arg1) = U (Proc.devRef .tc main_arg1) := (p3_arg1 (V2 U)).trans (v2_arg1 U)
theorem v3_arg2 : V3 U (Proc.devRef .tc main_arg2) = U (Proc.devRef .tc main_arg2) := (p3_arg2 (V2 U)).trans (v2_arg2 U)
theorem v3_arg3 : V3 U (Proc.devRef .tc main_arg3) = U (Proc.devRef .tc main_arg3) := (p3_arg3 (V2 U)).trans (v2_arg3 U)
theorem v3_arg4 : V3 U (Proc.devRef .tc main_arg4) = U (Proc.devRef .tc main_arg4) := (p3_arg4 (V2 U)).trans (v2_arg4 U)
theorem v3_v3 : V3 U (Proc.devRef .tc main_v3) = val_main_v3 (F := Ideal) (U (Proc.devRef .tc main_arg5)) := (p3_v3 (V2 U)).trans (v2_v3 U)
theorem v3_v6 : V3 U (Proc.devRef .tc main_v6) = val_main_v6 (F := Ideal) (U (Proc.devRef .tc main_arg5)) := (p3_v6 (V2 U)).trans (v2_v6 U)
theorem v3_v29 : V3 U (Proc.devRef .tc main_v29) = val_main_v29 (F := Ideal) (U (Proc.devRef .tc main_arg5)) :=
  p3_factors (V2 U) (U (Proc.devRef .tc main_arg5)) (v2_v14 U) (v2_v3 U) (v2_v6 U)

theorem v4_arg3 : V4 U (Proc.devRef .tc main_arg3) = U (Proc.devRef .tc main_arg3) := (p4_arg3 (V3 U)).trans (v3_arg3 U)
theorem v4_arg4 : V4 U (Proc.devRef .tc main_arg4) = U (Proc.devRef .tc main_arg4) := (p4_arg4 (V3 U)).trans (v3_arg4 U)
theorem v4_v3 : V4 U (Proc.devRef .tc main_v3) = val_main_v3 (F := Ideal) (U (Proc.devRef .tc main_arg5)) := (p4_v3 (V3 U)).trans (v3_v3 U)
theorem v4_v6 : V4 U (Proc.devRef .tc main_v6) = val_main_v6 (F := Ideal) (U (Proc.devRef .tc main_arg5)) := (p4_v6 (V3 U)).trans (v3_v6 U)
theorem v4_v29 : V4 U (Proc.devRef .tc main_v29) = val_main_v29 (F := Ideal) (U (Proc.devRef .tc main_arg5)) := (p4_v29 (V3 U)).trans (v3_v29 U)
theorem v4_v46 : V4 U (Proc.devRef .tc main_v46) = val_main_v46 (F := Ideal) (U (Proc.devRef .tc main_arg0)) (U (Proc.devRef .tc main_arg1)) (U (Proc.devRef .tc main_arg2)) (U (Proc.devRef .tc main_arg5)) :=
  p4_biased (V3 U) (U (Proc.devRef .tc main_arg0)) (U (Proc.devRef .tc main_arg1)) (U (Proc.devRef .tc main_arg2)) (U (Proc.devRef .tc main_arg5)) (v3_arg0 U) (v3_arg1 U) (v3_arg2 U) (v3_v3 U) (v3_v6 U) (v3_v29 U)

theorem v5_arg3 : V5 U (Proc.devRef .tc main_arg3) = U (Proc.devRef .tc main_arg3) := (p5_arg3 (V4 U)).trans (v4_arg3 U)
theorem v5_arg4 : V5 U (Proc.devRef .tc main_arg4) = U (Proc.devRef .tc main_arg4) := (p5_arg4 (V4 U)).trans (v4_arg4 U)
theorem v5_v3 : V5 U (Proc.devRef .tc main_v3) = val_main_v3 (F := Ideal) (U (Proc.devRef .tc main_arg5)) := (p5_v3 (V4 U)).trans (v4_v3 U)
theorem v5_v6 : V5 U (Proc.devRef .tc main_v6) = val_main_v6 (F := Ideal) (U (Proc.devRef .tc main_arg5)) := (p5_v6 (V4 U)).trans (v4_v6 U)
theorem v5_v29 : V5 U (Proc.devRef .tc main_v29) = val_main_v29 (F := Ideal) (U (Proc.devRef .tc main_arg5)) := (p5_v29 (V4 U)).trans (v4_v29 U)
theorem v5_v47 : V5 U (Proc.devRef .tc main_v47) = val_main_v47 (F := Ideal) (U (Proc.devRef .tc main_arg0)) (U (Proc.devRef .tc main_arg1)) (U (Proc.devRef .tc main_arg2)) (U (Proc.devRef .tc main_arg5)) :=
  p5_rectified (V4 U) (U (Proc.devRef .tc main_arg0)) (U (Proc.devRef .tc main_arg1)) (U (Proc.devRef .tc main_arg2)) (U (Proc.devRef .tc main_arg5)) (v4_v46 U)

theorem v6_v64 : V6 U (Proc.devRef .tc main_v64)
    = val_main_v64 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) :=
  p6_biased (V5 U) (U (Proc.devRef .tc main_arg0)) (U (Proc.devRef .tc main_arg1)) (U (Proc.devRef .tc main_arg2)) (U (Proc.devRef .tc main_arg3)) (U (Proc.devRef .tc main_arg4)) (U (Proc.devRef .tc main_arg5)) (v5_v47 U) (v5_arg3 U) (v5_arg4 U)
    (v5_v3 U) (v5_v6 U) (v5_v29 U)

theorem v7_shifted : V7 U (Proc.devRef .tc main_call2_v5) = val_main_call2_v5 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) :=
  p7_shifted (V6 U) (U (Proc.devRef .tc main_arg0)) (U (Proc.devRef .tc main_arg1)) (U (Proc.devRef .tc main_arg2)) (U (Proc.devRef .tc main_arg3)) (U (Proc.devRef .tc main_arg4)) (U (Proc.devRef .tc main_arg5)) (v6_v64 U)

/-- The fold of all 98 operations is the fold of the last piece over the contents after the seventh. -/
theorem fold_pieces : after (ops (F := Ideal)) U = after (seg 91 98) (V7 U) :=
  (congrArg (fun l => after l U) ops_pieces).trans (by simp only [after_append])

/-- The fold of the reference's operations over `U` leaves in the result buffer the result stage of what `U` holds
    in the six argument buffers. -/
theorem fold_result : after (ops (F := Ideal)) U (Proc.devRef .tc main_v65) = val_main_v65 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) :=
  (congrFun (fold_pieces U) _).trans (p8_result (V7 U) (U (Proc.devRef .tc main_arg0)) (U (Proc.devRef .tc main_arg1)) (U (Proc.devRef .tc main_arg2)) (U (Proc.devRef .tc main_arg3)) (U (Proc.devRef .tc main_arg4)) (U (Proc.devRef .tc main_arg5)) (v7_shifted U))

end Cert.ReferenceIdeal.FoldValue

end
-- ==== Proof.lean ====
/-
  A two-layer graph convolution on 100000 nodes, 1200000 edges plus one self-loop per node: the program with four
  tiled launches against the reference written with whole-array operations.

  Both programs prepare the graph with the same operations (the source and destination lists with the self-loops
  appended; each node's count of incoming edges; the reciprocal square root of the counts, zero where a count is not
  positive; for every edge the product of the two factors at its ends) and aggregate each layer with the same
  operations (gather the rows along the sources, scale them edge by edge, sum them into the destinations). They differ
  in the four dense stages between: the program computes each in a launch that walks the 100000 rows in 20 slabs of
  5000, the reference in one whole-array operation.
  * The two products: on the extended reals the matrix unit's product of two blocks into a zero accumulator is the sum
    over the inner index of the products of the entries — the narrowing of its operands to a shorter format is the
    identity — and row r of a product reads only row r of the left operand, so the 20 slabs written back are the
    reference's product.
  * The bias and the maximum with zero, and the bias and the logarithm of the softmax: entry (r, j) reads only row r of
    the array and the bias row, so again the slabs are the whole-array layer. The reference joins each row's maximum
    once more with −∞, which on the extended reals, where −∞ is the least element, changes nothing; and it lays the
    bias vector into a one-row array by a broadcast where the program reshapes it, which is the same array.
  No step uses that an input is finite: the two programs are the same composition of the same functions on all
  extended reals. The idealization rewrote no operation of the program, so it preserves it trivially.
-/
import proofs.«163492_j40776419508665_1_alg».proof.Defs
import proofs.«163492_j40776419508665_1_alg».proof.Proof.Gen.Kernel
import proofs.«163492_j40776419508665_1_alg».proof.Proof.Gen.Kernel.Frame
import proofs.«163492_j40776419508665_1_alg».proof.Proof.Gen.KernelIdeal
import proofs.«163492_j40776419508665_1_alg».proof.Proof.Gen.KernelIdeal.Frame
import proofs.«163492_j40776419508665_1_alg».proof.Proof.Gen.ReferenceIdeal
import proofs.«163492_j40776419508665_1_alg».proof.Proof.Gen.Pre_finite_inputs
import proofs.«163492_j40776419508665_1_alg».proof.Proof.KernelRun
import proofs.«163492_j40776419508665_1_alg».proof.Proof.Boundaries
import proofs.«163492_j40776419508665_1_alg».proof.Proof.RefRead
import proofs.«163492_j40776419508665_1_alg».proof.Proof.RefValue
import Idealize.ShloMosaic.Adequacy
import Idealize.ShloMosaic.Init

noncomputable section

namespace Cert.Proof

open Idealize.ShloMosaic Idealize.ShloMosaic.TcCoe Idealize.SL.Sem

/-- The printed program runs and keeps its arguments. -/
theorem frame_kernel : Cert.frame_Kernel := fun m ρ _ => Cert.Kernel.Gen.frame m ρ

/-- The idealized program runs and keeps its arguments. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The idealized program's run with its result named: the reference's result stage of the argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v61)
          = Cert.ReferenceIdeal.Read.val_main_v65 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelIdeal.Boundaries.result m ρ c), (h c).2⟩)
    (Cert.KernelIdeal.RunValue.run_result (F := Ideal) m ρ)

/-- From memories agreeing on the arguments both programs end with the same result array: the reference's result
    stage of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  have hfold := Cert.ReferenceIdeal.FoldValue.fold_result (StableHlo.launchContents m' c)
  rw [show StableHlo.launchContents m' c (Proc.devRef .tc Cert.ReferenceIdeal.main_arg0) = m ((c.tc : Thread Cert.KernelIdeal.nD Cert.KernelIdeal.τ).loc Cert.KernelIdeal.main_arg0) from (hagree c).1,
    show StableHlo.launchContents m' c (Proc.devRef .tc Cert.ReferenceIdeal.main_arg1) = m ((c.tc : Thread Cert.KernelIdeal.nD Cert.KernelIdeal.τ).loc Cert.KernelIdeal.main_arg1) from (hagree c).2.1,
    show StableHlo.launchContents m' c (Proc.devRef .tc Cert.ReferenceIdeal.main_arg2) = m ((c.tc : Thread Cert.KernelIdeal.nD Cert.KernelIdeal.τ).loc Cert.KernelIdeal.main_arg2) from (hagree c).2.2.1,
    show StableHlo.launchContents m' c (Proc.devRef .tc Cert.ReferenceIdeal.main_arg3) = m ((c.tc : Thread Cert.KernelIdeal.nD Cert.KernelIdeal.τ).loc Cert.KernelIdeal.main_arg3) from (hagree c).2.2.2.1,
    show StableHlo.launchContents m' c (Proc.devRef .tc Cert.ReferenceIdeal.main_arg4) = m ((c.tc : Thread Cert.KernelIdeal.nD Cert.KernelIdeal.τ).loc Cert.KernelIdeal.main_arg4) from (hagree c).2.2.2.2.1,
    show StableHlo.launchContents m' c (Proc.devRef .tc Cert.ReferenceIdeal.main_arg5) = m ((c.tc : Thread Cert.KernelIdeal.nD Cert.KernelIdeal.τ).loc Cert.KernelIdeal.main_arg5) from (hagree c).2.2.2.2.2] at hfold
  exact hfold

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
